-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40_1)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_1) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S4000x32 : Shape := ⟨2, ![4000, 32]⟩
abbrev S4000x1 : Shape := ⟨2, ![4000, 1]⟩
abbrev S4000x128 : Shape := ⟨2, ![4000, 128]⟩
abbrev S1700000x128 : Shape := ⟨2, ![1700000, 128]⟩
abbrev S1x128 : Shape := ⟨2, ![1, 128]⟩
abbrev S100000x2 : Shape := ⟨2, ![100000, 2]⟩
abbrev S4000x2 : Shape := ⟨2, ![4000, 2]⟩
abbrev S1x2 : Shape := ⟨2, ![1, 2]⟩

abbrev nBuf : Space → Nat
  | .hbm => 62
  | .vmem => 26
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .bf16⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .bf16⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S100000x128, .bf16⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .bf16⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S100000x128, .f32⟩
  | .hbm, ⟨61, _⟩ => ⟨S100000x2, .f32⟩
  | .local _ .vmem, ⟨0, _⟩ => ⟨S4000x32, .f32⟩
  | .local _ .vmem, ⟨1, _⟩ => ⟨S4000x32, .f32⟩
  | .local _ .vmem, ⟨2, _⟩ => ⟨S32x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128, .f32⟩
  | .local _ .vmem, ⟨12, _⟩ => ⟨S128x128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S128, .f32⟩
  | .local _ .vmem, ⟨20, _⟩ => ⟨S128x2, .f32⟩
  | .local _ .vmem, ⟨21, _⟩ => ⟨S2, .f32⟩
  | .local _ .vmem, ⟨22, _⟩ => ⟨S4000x128, .f32⟩
  | .local _ .vmem, ⟨23, _⟩ => ⟨S4000x128, .f32⟩
  | .local _ .vmem, ⟨24, _⟩ => ⟨S4000x2, .f32⟩
  | .local _ .vmem, ⟨25, _⟩ => ⟨S4000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1700000x1_S1700000_n_0_0_1_wf : ScatterDims.WF S100000 S1700000x1 S1700000 [] [0] [0] 1
  dot_S4000x32_S32x128_S4000x128_1_0_0_1_n_n_wf : DotDims.WF S4000x32 S32x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x2.size a ≤ S100000x2.size a
  hwx2_6 : ∀ i : grid2.Coords, EltTy.bits .f32 = 32 ∨ (Rect.block (s := S100000x2) S4000x2.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40_1) S4000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 98
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x2, .f32⟩
  | .hbm, ⟨95, _⟩ => ⟨S1x2, .f32⟩
  | .hbm, ⟨96, _⟩ => ⟨S100000x2, .f32⟩
  | .hbm, ⟨97, _⟩ => ⟨S100000x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x128_S100000x128_1_0_0_1_n_n_wf : DotDims.WF S100000x32 S32x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KRun.lean ====
/-
  The kernel's run with its two results kept: every weakly fair execution of @main ends with every unscoped buffer at the
  contents the fold through @main's segments leaves (`Gen.W8`: the launch memory through the three stretches of host
  operations and the three regions' write-backs), so in particular the logits and the embeddings end at that fold read
  at their buffers, and the arguments end as launched.
-/
import proofs.«128778_j61572651155681_2_alg».proof.Proof.Gen.KernelIdeal.Frame

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the logits and the embeddings at the last
    boundary's contents and the eight arguments as launched. -/
theorem run : θ_run defs (onTc (τ := τ) (main (F := F))) ⟨m, fun _ => 0, ρ⟩ (fun r => ∀ c : Dev nD,
      r.2.mem ((c.tc : Thread nD τ).loc main_v40_1) = W8 m ρ c (Proc.devRef .tc main_v40_1)
      ∧ r.2.mem ((c.tc : Thread nD τ).loc main_v40_0) = W8 m ρ c (Proc.devRef .tc main_v40_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40_1 (by decide)),
       h c _ (mem_uc main_v40_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ValRun

end
-- ==== Proof.LibSegment.lean ====
/-
  Row gather and segment sum read at an index, over abstract extents `N` (rows of the table), `E` (number of start
  indices) and `C` (columns).

  * ROW GATHER. `stablehlo.gather` of a table `x : [N, C]` at start indices `idx : [E, 1]` with offset axis 1, collapsed
    axis 0, start index map `[0]`, index vector axis 1 and slice sizes `[1, C]` (what taking rows `x[src]` is) reads, at
    `(e, k)`, the table at row `idx[e, 0]` — the word read as a SIGNED integer and CLAMPED into `[0, N − 1]` — and
    column `k`: on axis 0 the operand coordinate is the clamped start, on axis 1 it is the offset coordinate `k`.
  * SEGMENT SUM. `stablehlo.scatter` with an add body into an operand `x : [N, C]` of updates `upd : [E, C]` at scatter
    indices `idx : [E, 1]` (update window axis 1, inserted window axis 0, scatter-dims-to-operand-dims `[0]`, index
    vector axis 1) is, at the extended reals and at `(i, k)`, `x (i, k)` plus the sum of `upd (e, k)` over the edges `e`
    whose index `idx[e, 0]`, read SIGNED and NOT clamped, equals `i`: update `(e, k')` lands at row `idx[e, 0]`, column
    `k'`, and is dropped when that row is outside `[0, N)`; so it lands on `(i, k)` exactly when `idx[e, 0] = i` and
    `k' = k`, and the filtered sum over update indices re-indexes to the sum over those edges.
  * The same for a vector operand `x : [N]` with updates `upd : [E]` (no window axis).
-/
import Idealize.ShloMosaic.PureOps.Ideal
import Idealize.ShloMosaic.Lib.ValueIdx

noncomputable section

open scoped BigOperators

namespace Cert.LibSegment

open Idealize.ShloMosaic Idealize.ShloMosaic.ValueIdx

/-- The row a start index names: read signed and clamped into `[0, N − 1]`. -/
def clampRow (N : ℕ) (hN : 0 < N) {w : ℕ} (v : BitVec w) : Fin N := ⟨min v.toInt.toNat (N - 1), by omega⟩

/-- The edges whose index, read signed and not clamped, is node `i`. -/
def landing {N E w : ℕ} (idx : IVec ⟨2, ![E, 1]⟩ w) (i : Fin N) : Finset (Fin E) :=
  Finset.univ.filter fun e => (idx (ix2 e (0 : Fin 1))).toInt = (i.val : ℤ)

/-! ## Row gather -/

/-- The dimension numbers of a row gather: operand `[N, C]`, start indices `[E, 1]`, result `[E, C]`; their conditions
    `wf` are decided on a program's literal shapes. -/
abbrev rowGatherDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]` names (signed, clamped into `[0, N − 1]`) and
    column `k`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (clampRow N hN (idx (ix2 e (0 : Fin 1)))) k) := by
  unfold Host.gather
  congr 1
  funext a
  refine Fin.ext ?_
  match a with
  | ⟨0, _⟩ =>
    -- axis 0 is collapsed and named by the start index map: the coordinate is the clamped start
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the one kept axis, not named by the start index map: start 0, offset coordinate `k`
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hst : (rowGatherDims N E C wf).start (ix2 e k) idx 1 = 0 := by
      unfold GatherDims.start
      rw [dif_neg (fun h => absurd (List.mem_singleton.mp h) (show ¬ (1 : Fin 2) = 0 by decide))]
    rw [hst]
    simp only [Nat.add_zero, Nat.zero_add]
    rfl

/-! ## Scatter: where an update lands -/

/-- An update lands on operand index `i` exactly when, on every operand axis, its start plus its window coordinate is
    `i`'s coordinate (in particular inside the operand). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg (fun f => (f a).val) hf
      simp only at h1
      have := h a
      omega
    · intro hall
      funext a
      refine Fin.ext ?_
      show (d.start j idx a + (d.window j a : ℤ)).toNat = (i a).val
      rw [hall a]; exact Int.toNat_natCast _
  · rename_i h
    constructor
    · intro h0; exact absurd h0 (by simp)
    · intro hall
      exfalso; apply h
      intro a
      rw [hall a]
      exact ⟨Int.natCast_nonneg _, by exact_mod_cast (i a).isLt⟩

/-! ## Segment sum into rows -/

/-- The dimension numbers of a row scatter: operand `[N, C]`, scatter indices `[E, 1]`, updates `[E, C]`; their
    conditions `wf` are decided on a program's literal shapes. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k')` lands on `(i, k)` exactly when the index `idx[e, 0]`, read signed, is `i` and `k' = k`: on axis 0
    the start is the signed index and the window coordinate 0, on axis 1 the start is 0 and the window coordinate `k'`. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowScatterDims N E C wf).resultIdx? (ix2 e k') idx = some (ix2 i k)
      ↔ (idx (ix2 e (0 : Fin 1))).toInt = (i.val : ℤ) ∧ k' = k := by
  rw [resultIdx?_eq_some_iff]
  have hs0 : (rowScatterDims N E C wf).start (ix2 e k') idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e k') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e k') idx 1 = 0 := by
    unfold ScatterDims.start
    rw [dif_neg (fun h => absurd (List.mem_singleton.mp h) (show ¬ (1 : Fin 2) = 0 by decide))]
  have hw0 : (rowScatterDims N E C wf).window (ix2 e k') 0 = 0 := rfl
  have hw1 : (rowScatterDims N E C wf).window (ix2 e k') 1 = k'.val := rfl
  constructor
  · intro h
    have h0 := h 0
    have h1 := h 1
    rw [hs0, hw0] at h0
    rw [hs1, hw1] at h1
    have e0 : (((ix2 i k : (⟨2, ![N, C]⟩ : Shape).Idx) 0).val : ℤ) = (i.val : ℤ) := rfl
    have e1 : (((ix2 i k : (⟨2, ![N, C]⟩ : Shape).Idx) 1).val : ℤ) = (k.val : ℤ) := rfl
    rw [e0] at h0; rw [e1] at h1
    exact ⟨by omega, Fin.ext (by omega)⟩
  · rintro ⟨h0, rfl⟩ a
    match a with
    | ⟨0, _⟩ =>
      show (rowScatterDims N E C wf).start (ix2 e k') idx 0 + (((rowScatterDims N E C wf).window (ix2 e k') 0 : ℕ) : ℤ) = (i.val : ℤ)
      rw [hs0, hw0, h0]; simp
    | ⟨1, _⟩ =>
      show (rowScatterDims N E C wf).start (ix2 e k') idx 1 + (((rowScatterDims N E C wf).window (ix2 e k') 1 : ℕ) : ℤ) = (k'.val : ℤ)
      rw [hs1, hw1]; simp

/-- THE SEGMENT SUM READ AT `(i, k)`: the operand there plus the sum, over the edges whose index read signed is `i`, of
    the update at `(e, k)`. -/
theorem rowScatterAdd_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k) = x (ix2 i k) + ∑ e ∈ landing idx i, upd (ix2 e k) := by
  unfold Ideal.hostScatterAdd
  congr 1
  -- the update indices landing on `(i, k)` are the `(e, k)` with `e` an edge into `i`: re-index by the first coordinate
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    have hl := (rowScatter_lands wf idx e k' i k).mp (Finset.mem_filter.mp hj).2
    exact Finset.mem_filter.mpr ⟨Finset.mem_univ _, hl.1⟩
  · intro e he
    exact Finset.mem_filter.mpr ⟨Finset.mem_univ _,
      (rowScatter_lands wf idx e k i k).mpr ⟨(Finset.mem_filter.mp he).2, rfl⟩⟩
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl
  · intro e _
    rfl
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl

/-! ## Segment sum into a vector -/

/-- The dimension numbers of a scatter into a vector: operand `[N]`, scatter indices `[E, 1]`, updates `[E]` (no window
    axis); their conditions `wf` are decided on a program's literal shapes. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on `i` exactly when the index `idx[e, 0]`, read signed, is `i`: on the one operand axis the start is
    the signed index and the window coordinate 0. -/
theorem vecScatter_lands {N E w : ℕ} (wf : ScatterDims.WF ⟨1, ![N]⟩ ⟨2, ![E, 1]⟩ ⟨1, ![E]⟩ [] [0] [0] 1)
    (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) 0 = 0 := rfl
  constructor
  · intro h
    have h0 := h 0
    rw [hs0, hw0] at h0
    have e0 : (((ix1 i : (⟨1, ![N]⟩ : Shape).Idx) 0).val : ℤ) = (i.val : ℤ) := rfl
    rw [e0] at h0
    omega
  · intro h0 a
    match a with
    | ⟨0, _⟩ =>
      show (vecScatterDims N E wf).start (ix1 e) idx 0 + (((vecScatterDims N E wf).window (ix1 e) 0 : ℕ) : ℤ) = (i.val : ℤ)
      rw [hs0, hw0, h0]; simp

/-- THE SEGMENT SUM INTO A VECTOR READ AT `i`: the operand there plus the sum, over the edges whose index read signed
    is `i`, of the update at `e`. -/
theorem vecScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatterDims N E wf) x idx upd (ix1 i) = x (ix1 i) + ∑ e ∈ landing idx i, upd (ix1 e) := by
  unfold Ideal.hostScatterAdd
  congr 1
  -- the update indices landing on `i` are the edges into `i`: re-index by the one coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (vecScatter_lands wf idx e i).mp (Finset.mem_filter.mp hj).2⟩
  · intro e he
    exact Finset.mem_filter.mpr ⟨Finset.mem_univ _, (vecScatter_lands wf idx e i).mpr (Finset.mem_filter.mp he).2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end Cert.LibSegment

end
-- ==== Proof.RefGraph.lean ====
/-
  The graph data the reference reads off the edge array: per node the weight (the inverse square root of its degree, or
  zero for a node nothing is addressed to), per message its source row and the node it is addressed to (a start index
  read as a signed integer, a negative one moved up by the number of nodes, clamped into the table), per node the
  messages that land on it (the scatter index read as a signed integer is the node), and the value every sum starts from.
-/
import proofs.«128778_j61572651155681_2_alg».proof.Proof.RefReadP
import proofs.«128778_j61572651155681_2_alg».proof.Proof.LibSegment

noncomputable section

namespace Cert.ReferenceIdeal.RefVal

open Cert.ReferenceIdeal Cert.ReferenceIdeal.Gen Cert.ReferenceIdeal.ReadP Cert.LibSegment
open Idealize.ShloMosaic Idealize.ShloMosaic.ValueIdx

/-- The weight of node `n`. -/
def dinvOf (x1 : (⟨S2x1600000, .i32⟩ : BufTy).Contents (Elt Ideal)) (n : Fin 100000) : EReal :=
  val_main_v14 (F := Ideal) x1 (ix1 n)

/-- The row message `e` is read from. -/
def srcOf (x1 : (⟨S2x1600000, .i32⟩ : BufTy).Contents (Elt Ideal)) (e : Fin 1700000) : Fin 100000 :=
  clampRow 100000 (by decide) (val_main_v20 (F := Ideal) x1 (ix2 e (0 : Fin 1)))

/-- The node message `e` is addressed to, as the weight's gather reads it. -/
def dstOf (x1 : (⟨S2x1600000, .i32⟩ : BufTy).Contents (Elt Ideal)) (e : Fin 1700000) : Fin 100000 :=
  clampRow 100000 (by decide) (val_main_v27 (F := Ideal) x1 (ix2 e (0 : Fin 1)))

/-- The messages the segment sum adds into node `n`. -/
def landOf (x1 : (⟨S2x1600000, .i32⟩ : BufTy).Contents (Elt Ideal)) (n : Fin 100000) : Finset (Fin 1700000) :=
  landing (val_main_v9 (F := Ideal) x1) n

/-- The value every sum starts from and every rectifier compares with: the zero word. -/
abbrev zeroW : EReal := Ideal.ofBits .f32 0x00000000#32

end Cert.ReferenceIdeal.RefVal

end
-- ==== Proof.KHost.lean ====
/-
  What the kernel's three regions find in their arrays, as terms of the argument arrays.

  Between the regions @main runs host operations.  Before region 0 they build, from the edge array alone, the message
  sources and destinations (the edge rows with one self loop per node appended) and the node weights, laid out as a
  column; between regions they gather the previous region's output rows at the sources and add them into the
  destinations.  These are the SAME operations, on the same shapes, as the reference's own, so each is named here by the
  reference's stage of it; what differs from the reference — where the weights multiply — is inside the regions and in
  the aggregation's operand, which is kept as a variable.

  A buffer no operation of a stretch writes keeps its contents across the stretch; a region changes only its output
  arrays (its input arrays end as they were).
-/
import proofs.«128778_j61572651155681_2_alg».proof.Proof.Gen.KernelIdeal.Frame
import proofs.«128778_j61572651155681_2_alg».proof.Proof.RefGraph
import Idealize.ShloMosaic.Lib.StableHlo.Run
import Idealize.ShloMosaic.PureOps.Ideal

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A buffer that no operation of a stretch writes holds after the stretch what it held before. -/
local macro "host_keeps" : tactic => `(tactic| (
  refine StableHlo.after_of_forall_not_mem _ _ (List.forall_iff_forall_mem.mp ?_)
  simp only [hostOps0, hostOps0_1, hostOps0_2, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The edge array as launched. -/
abbrev edges (c : Dev nD) : (⟨S2x1600000, .i32⟩ : BufTy).Contents (Elt Ideal) := m ((c.tc : Thread nD τ).loc main_arg1)

/-! ## Before region 0 -/

/-- The first stretch leaves the message sources in their buffer: the reference's stage of them. -/
theorem W1_src (c : Dev nD) :
    W1 m ρ c (Proc.devRef .tc main_v3) = Cert.ReferenceIdeal.ReadP.val_main_v3 (F := Ideal) (edges m c) := by
  show StableHlo.after hostOps0 (W0 m ρ c) (Proc.devRef .tc main_v3) = _
  dsimp only [hostOps0]
  after_results
  rfl

/-- … and the message destinations. -/
theorem W1_dst (c : Dev nD) :
    W1 m ρ c (Proc.devRef .tc main_v6) = Cert.ReferenceIdeal.ReadP.val_main_v6 (F := Ideal) (edges m c) := by
  show StableHlo.after hostOps0 (W0 m ρ c) (Proc.devRef .tc main_v6) = _
  dsimp only [hostOps0]
  after_results
  rfl

/-! The weights.  The stretches are read one at a time over a VARIABLE valuation (what the buffers hold when the
    stretch starts), so that nothing is computed through an earlier stretch's fold. -/

section Steps

variable (V : Valuation τ sig (Elt Ideal))

set_option maxHeartbeats 400000 in
/-- The select of `where`: at its result buffer, the select of its three operands' contents. -/
theorem step_where :
    StableHlo.after hostOps0_1 V (Proc.devRef .tc main_v14)
      = select (V (Proc.devRef .tc main_v12)) (V (Proc.devRef .tc main_v13))
          (broadcastInDim S100000 ![] bcast_S_S100000 (V (Proc.devRef .tc main_cst_2))) := by
  dsimp only [hostOps0_1]
  after_results
  rfl

set_option maxHeartbeats 400000 in
/-- The reshape of the weights into a column. -/
theorem step_col :
    StableHlo.after hostOps0_2 V (Proc.devRef .tc main_v15)
      = shapeCast S100000x1 (V (Proc.devRef .tc main_v14)) shapeCasts_S100000_S100000x1 := by
  dsimp only [hostOps0_2]
  after_results
  rfl

end Steps

set_option maxHeartbeats 800000 in
/-- The first stretch leaves "the degree is positive" in its buffer: the reference's stage of it. -/
theorem W1_pos (c : Dev nD) :
    W1 m ρ c (Proc.devRef .tc main_v12) = Cert.ReferenceIdeal.ReadP.val_main_v12 (F := Ideal) (edges m c) := by
  show StableHlo.after hostOps0 (W0 m ρ c) (Proc.devRef .tc main_v12) = _
  dsimp only [hostOps0]
  after_results
  rfl

set_option maxHeartbeats 800000 in
/-- … the inverse square root of the degree … -/
theorem W1_rsqrt (c : Dev nD) :
    W1 m ρ c (Proc.devRef .tc main_v13) = Cert.ReferenceIdeal.ReadP.val_main_v13 (F := Ideal) (edges m c) := by
  show StableHlo.after hostOps0 (W0 m ρ c) (Proc.devRef .tc main_v13) = _
  dsimp only [hostOps0]
  after_results
  rfl

set_option maxHeartbeats 800000 in
/-- … and the zero the `where` falls back to. -/
theorem W1_zero (c : Dev nD) :
    W1 m ρ c (Proc.devRef .tc main_cst_2) = Cert.ReferenceIdeal.ReadP.val_main_cst_2 (F := Ideal) := by
  show StableHlo.after hostOps0 (W0 m ρ c) (Proc.devRef .tc main_cst_2) = _
  dsimp only [hostOps0]
  after_results
  rfl

/-- The weights after the `where`: the reference's stage of them. -/
theorem W2_dinv (c : Dev nD) :
    W2 m ρ c (Proc.devRef .tc main_v14) = Cert.ReferenceIdeal.ReadP.val_main_v14 (F := Ideal) (edges m c) := by
  refine (step_where (W1 m ρ c)).trans ?_
  rw [W1_pos, W1_rsqrt, W1_zero]
  rfl

/-- The weights, laid out as a column: the reference's stage of the weights, reshaped. -/
theorem W3_dinv2 (c : Dev nD) :
    W3 m ρ c (Proc.devRef .tc main_v15)
      = shapeCast S100000x1 (Cert.ReferenceIdeal.ReadP.val_main_v14 (F := Ideal) (edges m c)) shapeCasts_S100000_S100000x1 := by
  refine (step_col (W2 m ρ c)).trans ?_
  rw [W2_dinv]

theorem W3_src (c : Dev nD) :
    W3 m ρ c (Proc.devRef .tc main_v3) = Cert.ReferenceIdeal.ReadP.val_main_v3 (F := Ideal) (edges m c) :=
  calc W3 m ρ c (Proc.devRef .tc main_v3)
    _ = W2 m ρ c (Proc.devRef .tc main_v3) := by host_keeps
    _ = W1 m ρ c (Proc.devRef .tc main_v3) := by host_keeps
    _ = _ := W1_src m ρ c

theorem W3_dst (c : Dev nD) :
    W3 m ρ c (Proc.devRef .tc main_v6) = Cert.ReferenceIdeal.ReadP.val_main_v6 (F := Ideal) (edges m c) :=
  calc W3 m ρ c (Proc.devRef .tc main_v6)
    _ = W2 m ρ c (Proc.devRef .tc main_v6) := by host_keeps
    _ = W1 m ρ c (Proc.devRef .tc main_v6) := by host_keeps
    _ = _ := W1_dst m ρ c

/-- An argument no host operation before region 0 writes is as launched when region 0 is entered. -/
theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = _ := rfl

theorem W3_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := by host_keeps
    _ = W1 m ρ c (Proc.devRef .tc main_arg2) := by host_keeps
    _ = W0 m ρ c (Proc.devRef .tc main_arg2) := by host_keeps
    _ = _ := rfl

theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := by host_keeps
    _ = W1 m ρ c (Proc.devRef .tc main_arg3) := by host_keeps
    _ = W0 m ρ c (Proc.devRef .tc main_arg3) := by host_keeps
    _ = _ := rfl

theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := by host_keeps
    _ = W1 m ρ c (Proc.devRef .tc main_arg4) := by host_keeps
    _ = W0 m ρ c (Proc.devRef .tc main_arg4) := by host_keeps
    _ = _ := rfl

theorem W3_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := by host_keeps
    _ = W1 m ρ c (Proc.devRef .tc main_arg5) := by host_keeps
    _ = W0 m ρ c (Proc.devRef .tc main_arg5) := by host_keeps
    _ = _ := rfl

theorem W3_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := by host_keeps
    _ = W1 m ρ c (Proc.devRef .tc main_arg6) := by host_keeps
    _ = W0 m ρ c (Proc.devRef .tc main_arg6) := by host_keeps
    _ = _ := rfl

theorem W3_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := by host_keeps
    _ = W1 m ρ c (Proc.devRef .tc main_arg7) := by host_keeps
    _ = W0 m ρ c (Proc.devRef .tc main_arg7) := by host_keeps
    _ = _ := rfl

/-! ## Across region 0 and the second stretch -/

/-- Region 0 leaves in its output array what its write-backs leave. -/
theorem W4_out (c : Dev nD) : W4 m ρ c (Proc.devRef .tc main_v16) = (dat0 (V3 m ρ) c).arrAt 3 cfg0.N := W4_arr m ρ c 3

theorem W4_src (c : Dev nD) :
    W4 m ρ c (Proc.devRef .tc main_v3) = Cert.ReferenceIdeal.ReadP.val_main_v3 (F := Ideal) (edges m c) :=
  (W4_of_ne m ρ c main_v3 (by decide)).trans (W3_src m ρ c)

theorem W4_dst (c : Dev nD) :
    W4 m ρ c (Proc.devRef .tc main_v6) = Cert.ReferenceIdeal.ReadP.val_main_v6 (F := Ideal) (edges m c) :=
  (W4_of_ne m ρ c main_v6 (by decide)).trans (W3_dst m ρ c)

/-- The weights column is an input array of region 0 and no operation of the second stretch writes it. -/
theorem W5_dinv2 (c : Dev nD) :
    W5 m ρ c (Proc.devRef .tc main_v15)
      = shapeCast S100000x1 (Cert.ReferenceIdeal.ReadP.val_main_v14 (F := Ideal) (edges m c)) shapeCasts_S100000_S100000x1 :=
  calc W5 m ρ c (Proc.devRef .tc main_v15)
    _ = W4 m ρ c (Proc.devRef .tc main_v15) := by host_keeps
    _ = W3 m ρ c (Proc.devRef .tc main_v15) := (W4_arr m ρ c 2).trans (((dat0 (V3 m ρ) c).arrAt_in 2 rfl _).trans (A_eq0 (V3 m ρ) c 2))
    _ = _ := W3_dinv2 m ρ c

theorem W5_arg3 (c : Dev nD) : W5 m ρ c (Proc.devRef .tc main_arg3) = m ((c.tc : Thread nD τ).loc main_arg3) :=
  calc W5 m ρ c (Proc.devRef .tc main_arg3)
    _ = W4 m ρ c (Proc.devRef .tc main_arg3) := by host_keeps
    _ = W3 m ρ c (Proc.devRef .tc main_arg3) := W4_of_ne m ρ c main_arg3 (by decide)
    _ = _ := W3_arg3 m ρ c

theorem W5_arg4 (c : Dev nD) : W5 m ρ c (Proc.devRef .tc main_arg4) = m ((c.tc : Thread nD τ).loc main_arg4) :=
  calc W5 m ρ c (Proc.devRef .tc main_arg4)
    _ = W4 m ρ c (Proc.devRef .tc main_arg4) := by host_keeps
    _ = W3 m ρ c (Proc.devRef .tc main_arg4) := W4_of_ne m ρ c main_arg4 (by decide)
    _ = _ := W3_arg4 m ρ c

theorem W5_src (c : Dev nD) :
    W5 m ρ c (Proc.devRef .tc main_v3) = Cert.ReferenceIdeal.ReadP.val_main_v3 (F := Ideal) (edges m c) :=
  calc W5 m ρ c (Proc.devRef .tc main_v3)
    _ = W4 m ρ c (Proc.devRef .tc main_v3) := by host_keeps
    _ = _ := W4_src m ρ c

theorem W5_dst (c : Dev nD) :
    W5 m ρ c (Proc.devRef .tc main_v6) = Cert.ReferenceIdeal.ReadP.val_main_v6 (F := Ideal) (edges m c) :=
  calc W5 m ρ c (Proc.devRef .tc main_v6)
    _ = W4 m ρ c (Proc.devRef .tc main_v6) := by host_keeps
    _ = _ := W4_dst m ρ c

theorem W5_arg5 (c : Dev nD) : W5 m ρ c (Proc.devRef .tc main_arg5) = m ((c.tc : Thread nD τ).loc main_arg5) :=
  calc W5 m ρ c (Proc.devRef .tc main_arg5)
    _ = W4 m ρ c (Proc.devRef .tc main_arg5) := by host_keeps
    _ = W3 m ρ c (Proc.devRef .tc main_arg5) := W4_of_ne m ρ c main_arg5 (by decide)
    _ = _ := W3_arg5 m ρ c

theorem W5_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := by host_keeps
    _ = W3 m ρ c (Proc.devRef .tc main_arg6) := W4_of_ne m ρ c main_arg6 (by decide)
    _ = _ := W3_arg6 m ρ c

theorem W5_arg7 (c : Dev nD) : W5 m ρ c (Proc.devRef .tc main_arg7) = m ((c.tc : Thread nD τ).loc main_arg7) :=
  calc W5 m ρ c (Proc.devRef .tc main_arg7)
    _ = W4 m ρ c (Proc.devRef .tc main_arg7) := by host_keeps
    _ = W3 m ρ c (Proc.devRef .tc main_arg7) := W4_of_ne m ρ c main_arg7 (by decide)
    _ = _ := W3_arg7 m ρ c

/-! ## Across region 1 and the third stretch -/

/-- Region 1 leaves in its output array what its write-backs leave. -/
theorem W6_out (c : Dev nD) : W6 m ρ c (Proc.devRef .tc main_v28) = (dat1 (V5 m ρ) c).arrAt 4 cfg1.N := W6_arr m ρ c 4

theorem W6_src (c : Dev nD) :
    W6 m ρ c (Proc.devRef .tc main_v3) = Cert.ReferenceIdeal.ReadP.val_main_v3 (F := Ideal) (edges m c) :=
  (W6_of_ne m ρ c main_v3 (by decide)).trans (W5_src m ρ c)

theorem W6_dst (c : Dev nD) :
    W6 m ρ c (Proc.devRef .tc main_v6) = Cert.ReferenceIdeal.ReadP.val_main_v6 (F := Ideal) (edges m c) :=
  (W6_of_ne m ρ c main_v6 (by decide)).trans (W5_dst m ρ c)

theorem W7_dinv2 (c : Dev nD) :
    W7 m ρ c (Proc.devRef .tc main_v15)
      = shapeCast S100000x1 (Cert.ReferenceIdeal.ReadP.val_main_v14 (F := Ideal) (edges m c)) shapeCasts_S100000_S100000x1 :=
  calc W7 m ρ c (Proc.devRef .tc main_v15)
    _ = W6 m ρ c (Proc.devRef .tc main_v15) := by host_keeps
    _ = W5 m ρ c (Proc.devRef .tc main_v15) := (W6_arr m ρ c 1).trans (((dat1 (V5 m ρ) c).arrAt_in 1 rfl _).trans (A_eq1 (V5 m ρ) c 1))
    _ = _ := W5_dinv2 m ρ c

theorem W7_arg5 (c : Dev nD) : W7 m ρ c (Proc.devRef .tc main_arg5) = m ((c.tc : Thread nD τ).loc main_arg5) :=
  calc W7 m ρ c (Proc.devRef .tc main_arg5)
    _ = W6 m ρ c (Proc.devRef .tc main_arg5) := by host_keeps
    _ = W5 m ρ c (Proc.devRef .tc main_arg5) := W6_of_ne m ρ c main_arg5 (by decide)
    _ = _ := W5_arg5 m ρ c

theorem W7_arg6 (c : Dev nD) : W7 m ρ c (Proc.devRef .tc main_arg6) = m ((c.tc : Thread nD τ).loc main_arg6) :=
  calc W7 m ρ c (Proc.devRef .tc main_arg6)
    _ = W6 m ρ c (Proc.devRef .tc main_arg6) := by host_keeps
    _ = W5 m ρ c (Proc.devRef .tc main_arg6) := W6_of_ne m ρ c main_arg6 (by decide)
    _ = _ := W5_arg6 m ρ c

theorem W7_arg7 (c : Dev nD) : W7 m ρ c (Proc.devRef .tc main_arg7) = m ((c.tc : Thread nD τ).loc main_arg7) :=
  calc W7 m ρ c (Proc.devRef .tc main_arg7)
    _ = W6 m ρ c (Proc.devRef .tc main_arg7) := by host_keeps
    _ = W5 m ρ c (Proc.devRef .tc main_arg7) := W6_of_ne m ρ c main_arg7 (by decide)
    _ = _ := W5_arg7 m ρ c

/-! ## After region 2 -/

/-- Region 2 leaves in its two output arrays what its write-backs leave. -/
theorem W8_emb (c : Dev nD) : W8 m ρ c (Proc.devRef .tc main_v40_0) = (dat2 (V7 m ρ) c).arrAt 5 cfg2.N := W8_arr m ρ c 5
theorem W8_logits (c : Dev nD) : W8 m ρ c (Proc.devRef .tc main_v40_1) = (dat2 (V7 m ρ) c).arrAt 6 cfg2.N := W8_arr m ρ c 6

end Cert.KernelIdeal.HostVal

end
-- ==== Proof.KAgg.lean ====
/-
  What the program does between two of its regions, read entry by entry: the previous region's rows are taken at the
  messages' source rows, widened to single precision, and added into the rows the messages are addressed to, starting
  from zero.  At `(n, k)` that is the zero word plus the sum, over the messages landing on node `n`, of the table at the
  message's source row and column `k`.  The source array is made non-negative first (a negative start index is moved up
  by the number of nodes) exactly as the reference does it, so on the reference's own source and destination arrays
  the source rows and the landing sets are the reference's.
-/
import proofs.«128778_j61572651155681_2_alg».proof.Proof.Gen.KernelIdeal
import proofs.«128778_j61572651155681_2_alg».proof.Proof.RefGraph
import proofs.«128778_j61572651155681_2_alg».proof.Proof.LibSegment
import Idealize.ShloMosaic.PureOps.Ideal.Laws

noncomputable section

open scoped BigOperators

namespace Cert.KernelIdeal.HostVal

open Cert.KernelIdeal Cert.KernelIdeal.Gen Cert.LibSegment
open Idealize.ShloMosaic Idealize.ShloMosaic.ValueIdx

/-- The aggregation between two regions: rows of `h` gathered at the (non-negative) sources, widened, and summed into
    the destinations from zero. -/
def aggregate (h : (⟨S100000x128, .bf16⟩ : BufTy).Contents (Elt Ideal))
    (src dst : (⟨S1700000, .i32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (extf (F := Ideal) .f32 (Host.gather gather_S100000x128_S1700000x1_S1700000x128_1_0_n_n_0_1_1128 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src))) bitsLt_bf16_f32)

/-! ## The program's dimension records are the general ones -/

theorem rowGather_rec :
    gather_S100000x128_S1700000x1_S1700000x128_1_0_n_n_0_1_1128
      = rowGatherDims 100000 1700000 128 Facts₀.gather_S100000x128_S1700000x1_S1700000x128_1_0_n_n_0_1_1128_wf := rfl

theorem rowScatter_rec :
    scatter_S100000x128_S1700000x1_S1700000x128_1_0_0_1
      = rowScatterDims 100000 1700000 128 Facts₀.scatter_S100000x128_S1700000x1_S1700000x128_1_0_0_1_wf := rfl

/-! ## The segment sum of gathered, widened rows -/

/-- The start array read at an entry is the zero word. -/
theorem zero_read (n : Fin 100000) (k : Fin 128) :
    broadcastInDim S100000x128 ![] bcast_S_S100000x128 (constant (F := Ideal) S_ .f32 0x00000000#32) (ix2 n k)
      = Cert.ReferenceIdeal.RefVal.zeroW :=
  (broadcastInDim_apply _ bcast_S_S100000x128 _ (ix2 n k) ix0 (fun a => a.elim0)).trans rfl

/-- The segment sum of gathered and widened rows, at the program's records, read at `(n, k)`. -/
theorem segsum_read (h : (⟨S100000x128, .bf16⟩ : BufTy).Contents (Elt Ideal)) (iS iD : IVec S1700000x1 32)
    (Z : S100000x128.Idx → EReal) (n : Fin 100000) (k : Fin 128) :
    Host.scatterAdd (F := Ideal) (φ := .f32) scatter_S100000x128_S1700000x1_S1700000x128_1_0_0_1 Z iD
        (extf (F := Ideal) .f32 (Host.gather gather_S100000x128_S1700000x1_S1700000x128_1_0_n_n_0_1_1128 h iS) bitsLt_bf16_f32) (ix2 n k)
      = Z (ix2 n k) + ∑ e ∈ landing iD n, h (ix2 (clampRow 100000 (by decide) (iS (ix2 e (0 : Fin 1)))) k) := by
  rw [rowScatter_rec, rowGather_rec]
  show Ideal.hostScatterAdd _ Z iD _ (ix2 n k) = _
  rw [rowScatterAdd_apply]
  refine congrArg (fun s => Z (ix2 n k) + s) ?_
  refine Finset.sum_congr rfl fun e _ => ?_
  rw [extf_apply, rowGather_apply (by decide)]

/-! ## On the reference's source and destination arrays -/

/-- The destinations as a column are the reference's scatter indices. -/
theorem dst_col (x1 : (⟨Cert.ReferenceIdeal.S2x1600000, .i32⟩ : BufTy).Contents (Elt Ideal)) :
    broadcastInDim S1700000x1 ![0] bcast_S1700000_S1700000x1_0 (Cert.ReferenceIdeal.ReadP.val_main_v6 (F := Ideal) x1)
      = Cert.ReferenceIdeal.ReadP.val_main_v9 (F := Ideal) x1 := rfl

set_option maxHeartbeats 400000 in
/-- The sources, made non-negative, as a column are the reference's start indices. -/
theorem src_col (x1 : (⟨Cert.ReferenceIdeal.S2x1600000, .i32⟩ : BufTy).Contents (Elt Ideal)) :
    broadcastInDim S1700000x1 ![0] bcast_S1700000_S1700000x1_0
        (select (cmpi .slt (Cert.ReferenceIdeal.ReadP.val_main_v3 (F := Ideal) x1) (broadcastInDim S1700000 ![] bcast_S_S1700000 (constantI S_ 32 0#32)))
          (addi (Cert.ReferenceIdeal.ReadP.val_main_v3 (F := Ideal) x1) (broadcastInDim S1700000 ![] bcast_S_S1700000 (constantI S_ 32 100000#32)))
          (Cert.ReferenceIdeal.ReadP.val_main_v3 (F := Ideal) x1))
      = Cert.ReferenceIdeal.ReadP.val_main_v20 (F := Ideal) x1 := rfl

/-- THE AGGREGATION ON THE REFERENCE'S MESSAGES, entry by entry: the zero word plus the sum, over the messages landing
    on node `n`, of the table at the message's source row. -/
theorem aggregate_apply (h : (⟨S100000x128, .bf16⟩ : BufTy).Contents (Elt Ideal)) (x1 : (⟨Cert.ReferenceIdeal.S2x1600000, .i32⟩ : BufTy).Contents (Elt Ideal)) (n : Fin 100000) (k : Fin 128) :
    aggregate h (Cert.ReferenceIdeal.ReadP.val_main_v3 (F := Ideal) x1) (Cert.ReferenceIdeal.ReadP.val_main_v6 (F := Ideal) x1) (ix2 n k)
      = Cert.ReferenceIdeal.RefVal.zeroW
        + ∑ e ∈ Cert.ReferenceIdeal.RefVal.landOf x1 n, h (ix2 (Cert.ReferenceIdeal.RefVal.srcOf x1 e) k) := by
  unfold aggregate
  rw [dst_col, src_col, segsum_read, zero_read]
  rfl

end Cert.KernelIdeal.HostVal

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.KReg0.lean ====
/-
  The first layer's dense step, entry by entry.  With features `x` (100000 × 32), weights `w` (32 × 128) and a column
  `d` (100000 × 1) of row scales, the region leaves the array

      out[r, e] = d[r, 0] · Σ_j x[r, j] · w[j, e]          (j over the 32 feature columns).

  The grid has 25 points; point `t` computes rows 4000·t … 4000·t + 3999 of `out` from the same rows of `x` and of
  `d` and from the whole of `w`.  The 25 row blocks tile the 100000 rows, so after the last point the array holds the
  formula at every index.  The values are extended reals: there the roundings to the 16-bit format before and after the
  product are the identity, and the product into the zero accumulator is the plain finite sum above.
-/
import proofs.«128778_j61572651155681_2_alg».proof.Proof.Gen.KernelIdeal.Frame
import Idealize.ShloMosaic.Lib.Pipeline.Value
import Idealize.ShloMosaic.Lib.ValueIdx
import Idealize.ShloMosaic.PureOps.Ideal.Laws
import proofs.«128778_j61572651155681_2_alg».proof.Proof.LibDot
import proofs.«128778_j61572651155681_2_alg».proof.Proof.LibCols

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

/-- Where the product's dimension numbers send an output index and a contraction index in each operand. -/
theorem dot0_l0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
/-- The left operand's second coordinate is the contraction index. -/
theorem dot0_l1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
/-- The right operand's first coordinate is the contraction index. -/
theorem dot0_r0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
/-- The right operand's second coordinate is the output's column. -/
theorem dot0_r1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

set_option maxHeartbeats 400000 in
/-- Entry `(p, e)` of the stored block: row `p`'s scale times the inner product of row `p` of the features with
    column `e` of the weights. -/
theorem pay0_apply (x0 : Vec Ideal S4000x32 .f32) (x2 : Vec Ideal S32x128 .f32) (x5 : Vec Ideal S4000x1 .f32)
    (p : Fin 4000) (e : Fin 128) :
    k0_pay1 (F := Ideal) x0 x2 x5 (ix2 p e) = x5 (ix2 p (0 : Fin 1)) * ∑ j : Fin 32, x0 (ix2 p j) * x2 (ix2 j e) := by
  unfold k0_pay1
  show (broadcastTo S4000x128 (shapeCast S4000x1 x5 shapeCasts_S4000x1_S4000x1) broadcasts_S4000x1_S4000x128 (ix2 p e)
      * FloatOps.matmul (F := Ideal) dot_S4000x32_S32x128_S4000x128_1_0_0_1_n_n none (x0 : FVec Ideal S4000x32 .bf16) (x2 : FVec Ideal S32x128 .bf16)
          (constant (F := Ideal) S4000x128 .f32 0x00000000#32) (ix2 p e) : EReal) = _
  refine congrArg₂ (· * ·) ?_ ?_
  · rw [shapeCast_self]
    exact Cert.LibCols.col_bcast_apply x5 broadcasts_S4000x1_S4000x128 p e
  · exact Cert.LibDot.matmul_zero_apply dot_S4000x32_S32x128_S4000x128_1_0_0_1_n_n rfl rfl dot0_l0 dot0_l1 dot0_r0 dot0_r1 none _ _ p e

/-! ## From the blocks to the array -/

variable (V : (c : Dev nD) → (b : Ref sig .tc) → Buf (Elt Ideal) ((c : Thread nD τ).loc b))

/-- The zero offset of a rank-2 block, as a constant function. -/
theorem off2_zero : (![0, 0] : Fin 2 → Nat) = fun _ => 0 := funext fun a => by fin_cases a <;> rfl

/-- The array the region leaves: row `r` of the features times the weights, scaled by row `r`'s factor. -/
def G0 (x : S100000x32.Idx → EReal) (w : S32x128.Idx → EReal) (d : S100000x1.Idx → EReal) : S100000x128.Idx → EReal := fun i =>
  d (ix2 (⟨(i 0).val, (i 0).isLt⟩ : Fin 100000) (0 : Fin 1))
    * ∑ j : Fin 32, x (ix2 (⟨(i 0).val, (i 0).isLt⟩ : Fin 100000) j) * w (ix2 j (⟨(i 1).val, (i 1).isLt⟩ : Fin 128))

/-- `G0` at an index whose coordinates are known. -/
theorem G0_at (x : S100000x32.Idx → EReal) (w : S32x128.Idx → EReal) (d : S100000x1.Idx → EReal) (i : S100000x128.Idx)
    (r : Fin 100000) (e : Fin 128) (hr : (i 0).val = r.val) (he : (i 1).val = e.val) :
    G0 x w d i = d (ix2 r (0 : Fin 1)) * ∑ j : Fin 32, x (ix2 r j) * w (ix2 j e) := by
  obtain rfl : (⟨(i 0).val, (i 0).isLt⟩ : Fin 100000) = r := Fin.ext hr
  obtain rfl : (⟨(i 1).val, (i 1).isLt⟩ : Fin 128) = e := Fin.ext he
  rfl

/-- Grid point `t` works on block row `t` of the three row-blocked windows, and on the whole weights. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` holds rows `4000 t … 4000 t + 3999`. -/
theorem blk0_0_read (c : Dev nD) (t : Fin cfg0.N) (p : Fin 4000) (j : Fin 32) (r : Fin 100000) (hr : r.val = 4000 * t.val + p.val) :
    (iblk0 (F := Ideal) V c 0 t : Vec Ideal S4000x32 .f32) (ix2 p j) = (V c main_arg0 : S100000x32.Idx → EReal) (ix2 r j) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 4000 + 1 * p.val = r.val; omega
  | ⟨1, _⟩ => show win0_0.index t (1 : Fin 2) * 32 + 1 * j.val = j.val; omega

/-- The weights' block is the whole array at every point. -/
theorem blk0_1_read (c : Dev nD) (t : Fin cfg0.N) (j : Fin 32) (e : Fin 128) :
    (iblk0 (F := Ideal) V c 1 t : Vec Ideal S32x128 .f32) (ix2 j e) = (V c main_arg2 : S32x128.Idx → EReal) (ix2 j e) := by
  obtain ⟨-, -, e0, e1, -⟩ := idx0 t
  unfold iblk0
  rw [View.read_apply]
  show V c main_arg2 _ = V c main_arg2 _
  refine congrArg _ (funext fun a => Fin.ext ?_)
  match a with
  | ⟨0, _⟩ => show win0_1.index t (0 : Fin 2) * 32 + 1 * j.val = j.val; omega
  | ⟨1, _⟩ => show win0_1.index t (1 : Fin 2) * 128 + 1 * e.val = e.val; omega

/-- The scale column's block at point `t` holds rows `4000 t … 4000 t + 3999`. -/
theorem blk0_2_read (c : Dev nD) (t : Fin cfg0.N) (p : Fin 4000) (r : Fin 100000) (hr : r.val = 4000 * t.val + p.val) :
    (iblk0 (F := Ideal) V c 2 t : Vec Ideal S4000x1 .f32) (ix2 p (0 : Fin 1)) = (V c main_v15 : S100000x1.Idx → EReal) (ix2 r (0 : Fin 1)) := by
  obtain ⟨-, -, -, -, e0, e1, -⟩ := idx0 t
  unfold iblk0
  rw [View.read_apply]
  show V c main_v15 _ = V c main_v15 _
  refine congrArg _ (funext fun a => Fin.ext ?_)
  match a with
  | ⟨0, _⟩ => show win0_2.index t (0 : Fin 2) * 4000 + 1 * p.val = r.val; omega
  | ⟨1, _⟩ => show win0_2.index t (1 : Fin 2) * 1 + 1 * 0 = 0; omega

set_option maxHeartbeats 400000 in
/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_arg0) (V c main_arg2) (V c main_v15)) := by
  show (cfg0.win 3).cut (grid0.coords t) ((dat0 (F := Ideal) V c).after 3 t) = _
  rw [after0_3]
  unfold out0_3
  rw [View.canon_unit_zero off2_zero]
  simp only [View.ld_unit_zero (S := S4000x32) off2_zero, View.ld_unit_zero (S := S32x128) off2_zero, View.ld_unit_zero (S := S4000x1) off2_zero]
  obtain ⟨-, -, -, -, -, -, e0, e1⟩ := idx0 t
  have hN : cfg0.N = 25 := N_0
  have ht : t.val < 25 := hN ▸ t.isLt
  funext y
  have h0 : (y 0).val < 4000 := (y 0).isLt
  have h1 : (y 1).val < 128 := (y 1).isLt
  have hx : (cfg0.win 3).xinj (grid0.coords t) y = (ix2 (⟨(y 0).val, h0⟩ : Fin 4000) (⟨(y 1).val, h1⟩ : Fin 128) : S4000x128.Idx) :=
    funext fun a => by match a with | ⟨0, _⟩ => rfl | ⟨1, _⟩ => rfl
  refine (congrArg (k0_pay1 (F := Ideal) (iblk0 V c 0 t) (iblk0 V c 1 t) (iblk0 V c 2 t)) hx).trans ?_
  refine (pay0_apply _ _ _ _ _).trans ?_
  rw [View.read_apply]
  refine Eq.trans ?_ (G0_at _ _ _ (((cfg0.win 3).blk t).view.emb y) ⟨4000 * t.val + (y 0).val, by omega⟩ ⟨(y 1).val, h1⟩ ?_ ?_).symm
  · exact congrArg₂ (· * ·) (blk0_2_read V c t _ _ rfl)
      (Finset.sum_congr rfl fun j _ => congrArg₂ (· * ·) (blk0_0_read V c t _ j _ rfl) (blk0_1_read V c t j _))
  · show win0_3.index t (0 : Fin 2) * 4000 + 1 * (y 0).val = 4000 * t.val + (y 0).val; omega
  · show win0_3.index t (1 : Fin 2) * 128 + 1 * (y 1).val = (y 1).val; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v16).slice (win0_3.rect t)).set ↔ _
  rw [View.set_slice_whole, Rect.mem_set_unit]
  exact Iff.rfl

/-- Row `r` lies in the block of point `r / 4000`: the 25 blocks of 4000 rows fill the 100000 rows. -/
theorem cover0 (i : S100000x128.Idx) : ∃ t : Fin cfg0.N, (cfg0.win 3).flush t = true ∧ i ∈ ((cfg0.win 3).blk t).view.set := by
  have hN : cfg0.N = 25 := N_0
  have hi0 : (i 0).val < 100000 := (i 0).isLt
  have hi1 : (i 1).val < 128 := (i 1).isLt
  have ht : (i 0).val / 4000 < cfg0.N := by rw [hN]; omega
  refine ⟨⟨(i 0).val / 4000, ht⟩, flush0_3 _, ?_⟩
  rw [mem_blk0]
  obtain ⟨-, -, -, -, -, -, e0, e1⟩ := idx0 ⟨(i 0).val / 4000, ht⟩
  have e0' : win0_3.index ⟨(i 0).val / 4000, ht⟩ (0 : Fin 2) = (i 0).val / 4000 := e0
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; omega
  | ⟨1, _⟩ => show win0_3.index ⟨(i 0).val / 4000, ht⟩ (1 : Fin 2) * 128 ≤ (i 1).val ∧ (i 1).val < win0_3.index ⟨(i 0).val / 4000, ht⟩ (1 : Fin 2) * 128 + 128; omega

/-- The array after the region is `G0` of the arrays the region found. -/
theorem arr0 (c : Dev nD) : (dat0 (F := Ideal) V c).arrAt 3 cfg0.N = G0 (V c main_arg0) (V c main_arg2) (V c main_v15) :=
  (dat0 (F := Ideal) V c).arrAt_eq_of_cover 3 (G0 (V c main_arg0) (V c main_arg2) (V c main_v15)) (fun t _ => flushed0_eq V c t) cover0

/-- Region 0's result, entry by entry: `o[p, e] = d[p] · ∑ⱼ x[p, j] · w[j, e]`. -/
theorem final0 (c : Dev nD) (x : S100000x32.Idx → EReal) (w : S32x128.Idx → EReal) (d : S100000x1.Idx → EReal)
    (hx : V c main_arg0 = x) (hw : V c main_arg2 = w) (hd : V c main_v15 = d) (p : Fin 100000) (e : Fin 128) :
    (dat0 (F := Ideal) V c).arrAt 3 cfg0.N (ix2 p e) = d (ix2 p (0 : Fin 1)) * ∑ j : Fin 32, x (ix2 p j) * w (ix2 j e) := by
  subst hx hw hd
  rw [arr0]
  rfl

end Cert.KernelIdeal.RegVal

end
-- ==== Proof.KReg1.lean ====
/-
  The second layer's dense step, entry by entry.  With the aggregate `a` (100000 × 128), the column `d` (100000 × 1)
  of row scales, the bias `b` (128) and weights `w` (128 × 128), the hidden activation and the array the region leaves are

      h[r, j]   = max (d[r, 0] · a[r, j] + b[j]) 0,
      out[r, e] = d[r, 0] · Σ_j h[r, j] · w[j, e]          (j over the 128 hidden columns).

  The grid has 25 points; point `t` computes rows 4000·t … 4000·t + 3999 of `out` from the same rows of `a` and of
  `d` and from the whole of `b` and `w`.  The 25 row blocks tile the 100000 rows, so after the last point the array
  holds the formula at every index.  The values are extended reals: there the roundings to the 16-bit format before and
  after the product are the identity, and the product into the zero accumulator is the plain finite sum above.
-/
import proofs.«128778_j61572651155681_2_alg».proof.Proof.Gen.KernelIdeal.Frame
import Idealize.ShloMosaic.Lib.Pipeline.Value
import Idealize.ShloMosaic.Lib.ValueIdx
import Idealize.ShloMosaic.PureOps.Ideal.Laws
import proofs.«128778_j61572651155681_2_alg».proof.Proof.LibDot
import proofs.«128778_j61572651155681_2_alg».proof.Proof.LibCols

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

/-- Where the product's dimension numbers send an output index and a contraction index in each operand. -/
theorem dot1_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's second coordinate is the contraction index. -/
theorem dot1_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's first coordinate is the contraction index. -/
theorem dot1_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's second coordinate is the output's column. -/
theorem dot1_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

set_option maxHeartbeats 400000 in
/-- A product into the zero accumulator, scaled row by row by a column: entry `(p, e)` is row `p`'s factor times the
    inner product of row `p` of the left operand with column `e` of the right one. -/
theorem scaled_product_apply (dcol : Vec Ideal S4000x1 .f32) (A : FVec Ideal S4000x128 .bf16) (B : FVec Ideal S128x128 .bf16)
    (p : Fin 4000) (e : Fin 128) :
    (truncf .bf16 (mulf (broadcastTo S4000x128 (shapeCast S4000x1 dcol shapeCasts_S4000x1_S4000x1) broadcasts_S4000x1_S4000x128)
        (matmul dot_S4000x128_S128x128_S4000x128_1_0_0_1_n_n none A B (constant (F := Ideal) S4000x128 .f32 0x00000000#32))) bitsLt_bf16_f32
      : FVec Ideal S4000x128 .bf16) (ix2 p e)
      = dcol (ix2 p (0 : Fin 1)) * ∑ j : Fin 128, A (ix2 p j) * B (ix2 j e) := by
  show (broadcastTo S4000x128 (shapeCast S4000x1 dcol shapeCasts_S4000x1_S4000x1) broadcasts_S4000x1_S4000x128 (ix2 p e)
      * FloatOps.matmul (F := Ideal) dot_S4000x128_S128x128_S4000x128_1_0_0_1_n_n none A B (constant (F := Ideal) S4000x128 .f32 0x00000000#32) (ix2 p e) : EReal) = _
  refine congrArg₂ (· * ·) ?_ ?_
  · rw [shapeCast_self]
    exact Cert.LibCols.col_bcast_apply dcol broadcasts_S4000x1_S4000x128 p e
  · exact Cert.LibDot.matmul_zero_apply dot_S4000x128_S128x128_S4000x128_1_0_0_1_n_n rfl rfl dot1_l0 dot1_l1 dot1_r0 dot1_r1 none A B p e

set_option maxHeartbeats 400000 in
/-- The hidden activation at `(p, j)`: the scaled aggregate plus the bias, clamped below at zero. -/
theorem hidden_apply (x0 : Vec Ideal S4000x1 .f32) (x2 : Vec Ideal S4000x128 .f32) (x6 : Vec Ideal S128 .f32) (p : Fin 4000) (j : Fin 128) :
    (maximumf (addf (mulf (broadcastTo S4000x128 (shapeCast S4000x1 x0 shapeCasts_S4000x1_S4000x1) broadcasts_S4000x1_S4000x128)
          (shapeCast S4000x128 x2 shapeCasts_S4000x128_S4000x128))
        (broadcastTo S4000x128 (shapeCast S1x128 x6 shapeCasts_S128_S1x128) broadcasts_S1x128_S4000x128))
      (broadcast S4000x128 (Scalar.ofBits (F := Ideal) .f32 0x00000000#32)) : FVec Ideal S4000x128 .f32) (ix2 p j)
      = max (x0 (ix2 p (0 : Fin 1)) * x2 (ix2 p j) + x6 (ix1 j)) (Ideal.ofBits .f32 0x00000000#32) := by
  show max ((broadcastTo S4000x128 (shapeCast S4000x1 x0 shapeCasts_S4000x1_S4000x1) broadcasts_S4000x1_S4000x128 (ix2 p j) : EReal)
        * shapeCast S4000x128 x2 shapeCasts_S4000x128_S4000x128 (ix2 p j)
      + broadcastTo S4000x128 (shapeCast S1x128 x6 shapeCasts_S128_S1x128) broadcasts_S1x128_S4000x128 (ix2 p j))
    (Ideal.ofBits .f32 0x00000000#32) = _
  refine congrArg₂ max (congrArg₂ (· + ·) (congrArg₂ (· * ·) ?_ ?_) ?_) rfl
  · rw [shapeCast_self]
    exact Cert.LibCols.col_bcast_apply x0 broadcasts_S4000x1_S4000x128 p j
  · rw [shapeCast_self]
  · exact Cert.LibCols.bias_rows_apply x6 shapeCasts_S128_S1x128 broadcasts_S1x128_S4000x128 p j

set_option maxHeartbeats 400000 in
/-- Entry `(p, e)` of the stored block: row `p`'s scale times the inner product of row `p` of the hidden activation with
    column `e` of the weights. -/
theorem pay1_apply (x0 : Vec Ideal S4000x1 .f32) (x2 : Vec Ideal S4000x128 .f32) (x6 : Vec Ideal S128 .f32)
    (x13 : Vec Ideal S128x128 .f32) (x16 : Vec Ideal S4000x1 .f32) (p : Fin 4000) (e : Fin 128) :
    k1_pay1 (F := Ideal) x0 x2 x6 x13 x16 (ix2 p e)
      = x16 (ix2 p (0 : Fin 1)) * ∑ j : Fin 128,
          max (x0 (ix2 p (0 : Fin 1)) * x2 (ix2 p j) + x6 (ix1 j)) (Ideal.ofBits .f32 0x00000000#32) * x13 (ix2 j e) := by
  unfold k1_pay1
  refine (scaled_product_apply x16 _ _ p e).trans ?_
  refine congrArg _ (Finset.sum_congr rfl fun j _ => congrArg₂ (· * ·) ?_ rfl)
  exact hidden_apply x0 x2 x6 p j

/-! ## From the blocks to the array -/

variable (V : (c : Dev nD) → (b : Ref sig .tc) → Buf (Elt Ideal) ((c : Thread nD τ).loc b))

/-- The zero offset of a rank-2 block, as a constant function. -/
theorem off2_zero1 : (![0, 0] : Fin 2 → Nat) = fun _ => 0 := funext fun a => by fin_cases a <;> rfl
/-- The zero offset of a rank-1 block, as a constant function. -/
theorem off1_zero1 : (![0] : Fin 1 → Nat) = fun _ => 0 := funext fun a => by fin_cases a; rfl

/-- The array the region leaves: row `r` of the hidden activation `max (d[r] · a[r, ·] + b) 0` times the weights, scaled
    by row `r`'s factor. -/
def G1 (a : S100000x128.Idx → EReal) (d : S100000x1.Idx → EReal) (b : S128.Idx → EReal) (w : S128x128.Idx → EReal) :
    S100000x128.Idx → EReal := fun i =>
  d (ix2 (⟨(i 0).val, (i 0).isLt⟩ : Fin 100000) (0 : Fin 1))
    * ∑ j : Fin 128, max (d (ix2 (⟨(i 0).val, (i 0).isLt⟩ : Fin 100000) (0 : Fin 1)) * a (ix2 (⟨(i 0).val, (i 0).isLt⟩ : Fin 100000) j) + b (ix1 j))
        (Ideal.ofBits .f32 0x00000000#32) * w (ix2 j (⟨(i 1).val, (i 1).isLt⟩ : Fin 128))

/-- `G1` at an index whose coordinates are known. -/
theorem G1_at (a : S100000x128.Idx → EReal) (d : S100000x1.Idx → EReal) (b : S128.Idx → EReal) (w : S128x128.Idx → EReal)
    (i : S100000x128.Idx) (r : Fin 100000) (e : Fin 128) (hr : (i 0).val = r.val) (he : (i 1).val = e.val) :
    G1 a d b w i = d (ix2 r (0 : Fin 1)) * ∑ j : Fin 128,
      max (d (ix2 r (0 : Fin 1)) * a (ix2 r j) + b (ix1 j)) (Ideal.ofBits .f32 0x00000000#32) * w (ix2 j e) := by
  obtain rfl : (⟨(i 0).val, (i 0).isLt⟩ : Fin 100000) = r := Fin.ext hr
  obtain rfl : (⟨(i 1).val, (i 1).isLt⟩ : Fin 128) = e := Fin.ext he
  rfl

/-- Grid point `t` works on block row `t` of the three row-blocked windows, and on the whole bias and weights. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` holds rows `4000 t … 4000 t + 3999`. -/
theorem blk1_0_read (c : Dev nD) (t : Fin cfg1.N) (p : Fin 4000) (j : Fin 128) (r : Fin 100000) (hr : r.val = 4000 * t.val + p.val) :
    (iblk1 (F := Ideal) V c 0 t : Vec Ideal S4000x128 .f32) (ix2 p j) = (V c main_v27 : S100000x128.Idx → EReal) (ix2 r j) := by
  obtain ⟨e0, e1, -⟩ := idx1 t
  unfold iblk1
  rw [View.read_apply]
  show V c main_v27 _ = V c main_v27 _
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * j.val = j.val; omega

/-- The scale column's block at point `t` holds rows `4000 t … 4000 t + 3999`. -/
theorem blk1_1_read (c : Dev nD) (t : Fin cfg1.N) (p : Fin 4000) (r : Fin 100000) (hr : r.val = 4000 * t.val + p.val) :
    (iblk1 (F := Ideal) V c 1 t : Vec Ideal S4000x1 .f32) (ix2 p (0 : Fin 1)) = (V c main_v15 : S100000x1.Idx → EReal) (ix2 r (0 : Fin 1)) := by
  obtain ⟨-, -, e0, e1, -⟩ := idx1 t
  unfold iblk1
  rw [View.read_apply]
  show V c main_v15 _ = V c main_v15 _
  refine congrArg _ (funext fun a => Fin.ext ?_)
  match a with
  | ⟨0, _⟩ => show win1_1.index t (0 : Fin 2) * 4000 + 1 * p.val = r.val; omega
  | ⟨1, _⟩ => show win1_1.index t (1 : Fin 2) * 1 + 1 * 0 = 0; omega

/-- The bias's block is the whole vector at every point. -/
theorem blk1_2_read (c : Dev nD) (t : Fin cfg1.N) (j : Fin 128) :
    (iblk1 (F := Ideal) V c 2 t : Vec Ideal S128 .f32) (ix1 j) = (V c main_arg3 : S128.Idx → EReal) (ix1 j) := by
  obtain ⟨-, -, -, -, e0, -⟩ := idx1 t
  unfold iblk1
  rw [View.read_apply]
  show V c main_arg3 _ = V c main_arg3 _
  refine congrArg _ (funext fun a => Fin.ext ?_)
  match a with
  | ⟨0, _⟩ => show win1_2.index t (0 : Fin 1) * 128 + 1 * j.val = j.val; omega

/-- The weights' block is the whole array at every point. -/
theorem blk1_3_read (c : Dev nD) (t : Fin cfg1.N) (j : Fin 128) (e : Fin 128) :
    (iblk1 (F := Ideal) V c 3 t : Vec Ideal S128x128 .f32) (ix2 j e) = (V c main_arg4 : S128x128.Idx → EReal) (ix2 j e) := by
  obtain ⟨-, -, -, -, -, e0, e1, -⟩ := idx1 t
  unfold iblk1
  rw [View.read_apply]
  show V c main_arg4 _ = V c main_arg4 _
  refine congrArg _ (funext fun a => Fin.ext ?_)
  match a with
  | ⟨0, _⟩ => show win1_3.index t (0 : Fin 2) * 128 + 1 * j.val = j.val; omega
  | ⟨1, _⟩ => show win1_3.index t (1 : Fin 2) * 128 + 1 * e.val = e.val; omega

set_option maxHeartbeats 400000 in
/-- What point `t` writes back is block `t` of `G1` of the arrays as the region finds them. -/
theorem flushed1_eq (c : Dev nD) (t : Fin cfg1.N) :
    (dat1 (F := Ideal) V c).flushed 4 t
      = ((cfg1.win 4).blk t).view.read (Elt Ideal) (G1 (V c main_v27) (V c main_v15) (V c main_arg3) (V c main_arg4)) := by
  show (cfg1.win 4).cut (grid1.coords t) ((dat1 (F := Ideal) V c).after 4 t) = _
  rw [after1_4]
  unfold out1_4
  rw [View.canon_unit_zero off2_zero1]
  simp only [View.ld_unit_zero (S := S4000x128) off2_zero1, View.ld_unit_zero (S := S4000x1) off2_zero1,
    View.ld_unit_zero (S := S128) off1_zero1, View.ld_unit_zero (S := S128x128) off2_zero1]
  obtain ⟨-, -, -, -, -, -, -, e0, e1⟩ := idx1 t
  have hN : cfg1.N = 25 := N_1
  have ht : t.val < 25 := hN ▸ t.isLt
  funext y
  have h0 : (y 0).val < 4000 := (y 0).isLt
  have h1 : (y 1).val < 128 := (y 1).isLt
  have hx : (cfg1.win 4).xinj (grid1.coords t) y = (ix2 (⟨(y 0).val, h0⟩ : Fin 4000) (⟨(y 1).val, h1⟩ : Fin 128) : S4000x128.Idx) :=
    funext fun a => by match a with | ⟨0, _⟩ => rfl | ⟨1, _⟩ => rfl
  refine (congrArg (k1_pay1 (F := Ideal) (iblk1 V c 1 t) (iblk1 V c 0 t) (iblk1 V c 2 t) (iblk1 V c 3 t) (iblk1 V c 1 t)) hx).trans ?_
  refine (pay1_apply _ _ _ _ _ _ _).trans ?_
  rw [View.read_apply]
  refine Eq.trans ?_ (G1_at _ _ _ _ (((cfg1.win 4).blk t).view.emb y) ⟨4000 * t.val + (y 0).val, by omega⟩ ⟨(y 1).val, h1⟩ ?_ ?_).symm
  · exact congrArg₂ (· * ·) (blk1_1_read V c t _ _ rfl)
      (Finset.sum_congr rfl fun j _ => congrArg₂ (· * ·)
        (congrArg₂ max (congrArg₂ (· + ·) (congrArg₂ (· * ·) (blk1_1_read V c t _ _ rfl) (blk1_0_read V c t _ j _ rfl)) (blk1_2_read V c t j)) rfl)
        (blk1_3_read V c t j _))
  · show win1_4.index t (0 : Fin 2) * 4000 + 1 * (y 0).val = 4000 * t.val + (y 0).val; omega
  · show win1_4.index t (1 : Fin 2) * 128 + 1 * (y 1).val = (y 1).val; omega

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v28).slice (win1_4.rect t)).set ↔ _
  rw [View.set_slice_whole, Rect.mem_set_unit]
  exact Iff.rfl

/-- Row `r` lies in the block of point `r / 4000`: the 25 blocks of 4000 rows fill the 100000 rows. -/
theorem cover1 (i : S100000x128.Idx) : ∃ t : Fin cfg1.N, (cfg1.win 4).flush t = true ∧ i ∈ ((cfg1.win 4).blk t).view.set := by
  have hN : cfg1.N = 25 := N_1
  have hi0 : (i 0).val < 100000 := (i 0).isLt
  have hi1 : (i 1).val < 128 := (i 1).isLt
  have ht : (i 0).val / 4000 < cfg1.N := by rw [hN]; omega
  refine ⟨⟨(i 0).val / 4000, ht⟩, flush1_4 _, ?_⟩
  rw [mem_blk1]
  obtain ⟨-, -, -, -, -, -, -, e0, e1⟩ := idx1 ⟨(i 0).val / 4000, ht⟩
  have e0' : win1_4.index ⟨(i 0).val / 4000, ht⟩ (0 : Fin 2) = (i 0).val / 4000 := e0
  intro a
  match a with
  | ⟨0, _⟩ => show win1_4.index ⟨(i 0).val / 4000, ht⟩ (0 : Fin 2) * 4000 ≤ (i 0).val ∧ (i 0).val < win1_4.index ⟨(i 0).val / 4000, ht⟩ (0 : Fin 2) * 4000 + 4000; omega
  | ⟨1, _⟩ => show win1_4.index ⟨(i 0).val / 4000, ht⟩ (1 : Fin 2) * 128 ≤ (i 1).val ∧ (i 1).val < win1_4.index ⟨(i 0).val / 4000, ht⟩ (1 : Fin 2) * 128 + 128; omega

/-- The array after the region is `G1` of the arrays the region found. -/
theorem arr1 (c : Dev nD) :
    (dat1 (F := Ideal) V c).arrAt 4 cfg1.N = G1 (V c main_v27) (V c main_v15) (V c main_arg3) (V c main_arg4) :=
  (dat1 (F := Ideal) V c).arrAt_eq_of_cover 4 (G1 (V c main_v27) (V c main_v15) (V c main_arg3) (V c main_arg4))
    (fun t _ => flushed1_eq V c t) cover1

/-- Region 1's result, entry by entry: `o[p, e] = d[p] · ∑ⱼ max (d[p] · a[p, j] + b[j]) 0 · w[j, e]`. -/
theorem final1 (c : Dev nD) (a : S100000x128.Idx → EReal) (d : S100000x1.Idx → EReal) (b : S128.Idx → EReal) (w : S128x128.Idx → EReal)
    (ha : V c main_v27 = a) (hd : V c main_v15 = d) (hb : V c main_arg3 = b) (hw : V c main_arg4 = w) (p : Fin 100000) (e : Fin 128) :
    (dat1 (F := Ideal) V c).arrAt 4 cfg1.N (ix2 p e)
      = d (ix2 p (0 : Fin 1)) * ∑ j : Fin 128,
          max (d (ix2 p (0 : Fin 1)) * a (ix2 p j) + b (ix1 j)) (Ideal.ofBits .f32 0x00000000#32) * w (ix2 j e) := by
  subst ha hd hb hw
  rw [arr1]
  rfl

end Cert.KernelIdeal.RegVal

end
-- ==== Proof.KReg2.lean ====
/-
  Region 2 of the kernel, read at an index: the two arrays it leaves — the embeddings [100000, 128] and the logits
  [100000, 2] — as formulas in the arrays the region finds when it is entered, on the extended reals.

  For rows `r`, lanes `k`, classes `q`, with `a` the aggregated features, `d` the per-row scale, `b` the bias,
  `W` the classifier's weights and `β` its bias:
    emb[r, k]    = max (d[r, 0] · a[r, k] + b[k]) 0
    logits[r, q] = (∑ₖ emb[r, k] · W[k, q]) + β[q].
  Each grid point `t` of the 25 computes rows 4000·t … 4000·t + 3999 from the same rows of `a` and `d`; the blocks tile
  the arrays, so each array ends holding the formula at every index.
-/
import proofs.«128778_j61572651155681_2_alg».proof.Proof.Gen.KernelIdeal.Frame
import Idealize.ShloMosaic.Lib.Pipeline.Value
import Idealize.ShloMosaic.Lib.ValueIdx
import Idealize.ShloMosaic.PureOps.Ideal.Laws
import proofs.«128778_j61572651155681_2_alg».proof.Proof.LibCols
import proofs.«128778_j61572651155681_2_alg».proof.Proof.LibDot

set_option maxRecDepth 16384

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The body's two payloads at an index of a block -/

/-- The embeddings payload at row `p`, lane `e` of a block: the row's scale times the entry, plus the lane's bias, clamped below at zero. -/
theorem emb_at (x0 : Vec Ideal S4000x1 .f32) (x2 : Vec Ideal S4000x128 .f32) (x6 : Vec Ideal S128 .f32) (p : Fin 4000) (e : Fin 128) :
    k2_pay1 (F := Ideal) x0 x2 x6 (ix2 p e)
      = max (x0 (ix2 p (0 : Fin 1)) * x2 (ix2 p e) + x6 (ix1 e)) (Ideal.ofBits .f32 0x00000000#32) := by
  unfold k2_pay1
  simp only [shapeCast_self]
  have h1 := Cert.LibCols.col_bcast_apply (a := 4000) (b := 128) x0 broadcasts_S4000x1_S4000x128 p e
  have h2 := Cert.LibCols.bias_rows_apply (a := 4000) (c := 128) x6 shapeCasts_S128_S1x128 broadcasts_S1x128_S4000x128 p e
  show max (broadcastTo S4000x128 x0 broadcasts_S4000x1_S4000x128 (ix2 p e) * x2 (ix2 p e)
      + broadcastTo S4000x128 (shapeCast S1x128 x6 shapeCasts_S128_S1x128) broadcasts_S1x128_S4000x128 (ix2 p e))
      (Ideal.ofBits .f32 0x00000000#32) = _
  rw [h1, h2]

/-! ## The classifier's product: where its dimension numbers send an output index and a contraction index -/

theorem cls_lhs0 (i : S4000x2.Idx) (q : dot_S4000x128_S128x2_S4000x2_1_0_0_1_n_n.contr.Idx) :
    (dot_S4000x128_S128x2_S4000x2_1_0_0_1_n_n.lhsIdx i q 0).val = (i 0).val := by
  unfold DotDims.lhsIdx
  rw [dif_neg (show ¬(0 : Fin S4000x128.rank) ∈ dot_S4000x128_S128x2_S4000x2_1_0_0_1_n_n.lhsBatch by decide), dif_pos (show (0 : Fin S4000x128.rank) ∈ dot_S4000x128_S128x2_S4000x2_1_0_0_1_n_n.lhsNonContracting by decide)]
  rfl
theorem cls_lhs1 (i : S4000x2.Idx) (q : dot_S4000x128_S128x2_S4000x2_1_0_0_1_n_n.contr.Idx) :
    (dot_S4000x128_S128x2_S4000x2_1_0_0_1_n_n.lhsIdx i q 1).val = (q ⟨0, by decide⟩).val :=
  dot_S4000x128_S128x2_S4000x2_1_0_0_1_n_n.lhsIdx_val_of_single rfl i q
theorem cls_rhs0 (i : S4000x2.Idx) (q : dot_S4000x128_S128x2_S4000x2_1_0_0_1_n_n.contr.Idx) :
    (dot_S4000x128_S128x2_S4000x2_1_0_0_1_n_n.rhsIdx i q 0).val = (q ⟨0, by decide⟩).val :=
  dot_S4000x128_S128x2_S4000x2_1_0_0_1_n_n.rhsIdx_val_of_single rfl i q
theorem cls_rhs1 (i : S4000x2.Idx) (q : dot_S4000x128_S128x2_S4000x2_1_0_0_1_n_n.contr.Idx) :
    (dot_S4000x128_S128x2_S4000x2_1_0_0_1_n_n.rhsIdx i q 1).val = (i 1).val := by
  unfold DotDims.rhsIdx
  rw [dif_neg (show ¬(1 : Fin S128x2.rank) ∈ dot_S4000x128_S128x2_S4000x2_1_0_0_1_n_n.rhsBatch by decide), dif_pos (show (1 : Fin S128x2.rank) ∈ dot_S4000x128_S128x2_S4000x2_1_0_0_1_n_n.rhsNonContracting by decide)]
  rfl

/-- The logits payload at row `p`, class `q` of a block: the row of embeddings against column `q` of the weights, plus
    the class's bias. -/
theorem logits_at (x0 : Vec Ideal S4000x1 .f32) (x2 : Vec Ideal S4000x128 .f32) (x6 : Vec Ideal S128 .f32)
    (x14 : Vec Ideal S128x2 .f32) (x17 : Vec Ideal S2 .f32) (p : Fin 4000) (q : Fin 2) :
    k2_pay2 (F := Ideal) x0 x2 x6 x14 x17 (ix2 p q)
      = (∑ j : Fin 128, max (x0 (ix2 p (0 : Fin 1)) * x2 (ix2 p j) + x6 (ix1 j)) (Ideal.ofBits .f32 0x00000000#32) * x14 (ix2 j q))
        + x17 (ix1 q) := by
  unfold k2_pay2
  have hm := Cert.LibDot.matmul_zero_apply (m := 4000) (k := 128) (n := 2) dot_S4000x128_S128x2_S4000x2_1_0_0_1_n_n rfl rfl
    cls_lhs0 cls_lhs1 cls_rhs0 cls_rhs1 none
    (truncf .bf16 (k2_pay1 (F := Ideal) x0 x2 x6) bitsLt_bf16_f32) (truncf .bf16 x14 bitsLt_bf16_f32) p q
  have hb := Cert.LibCols.bias_rows_apply (a := 4000) (c := 2) x17 shapeCasts_S2_S1x2 broadcasts_S1x2_S4000x2 p q
  refine (congrArg₂ (fun (u w : EReal) => u + w) hm hb).trans ?_
  refine congrArg (fun u : EReal => u + x17 (ix1 q)) (Finset.sum_congr rfl fun j _ => ?_)
  exact congrArg (fun u : EReal => u * x14 (ix2 j q)) (emb_at x0 x2 x6 p j)

/-! ## From blocks to the arrays -/

theorem zero_off2 : (![0, 0] : Fin 2 → Nat) = fun _ => 0 := funext fun a => by fin_cases a <;> rfl
theorem zero_off1 : (![0] : Fin 1 → Nat) = fun _ => 0 := funext fun a => by fin_cases a <;> rfl

/-- The embeddings as one function of the three arrays the region reads: at row `r`, lane `k`, the row's scale times
    the entry, plus the lane's bias, clamped below at zero. -/
def embOf (a : S100000x128.Idx → EReal) (d : S100000x1.Idx → EReal) (b : S128.Idx → EReal) : S100000x128.Idx → EReal :=
  fun i => max (d (ix2 (n0 := 100000) (i 0) (0 : Fin 1)) * a i + b (ix1 (n := 128) (i 1))) (Ideal.ofBits .f32 0x00000000#32)

/-- The printed index maps over the 25 points: every row-blocked window sits at block row `t`, block column 0; the
    whole-array windows at block 0. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-! ## The embeddings output -/

set_option maxHeartbeats 400000 in
/-- What point `t` writes back to the embeddings array is block `t` of `embOf` of the arrays as the region finds them. -/
theorem flushed_emb (c : Dev nD) (t : Fin cfg2.N) :
    (dat2 (F := Ideal) V c).flushed 5 t
      = ((cfg2.win 5).blk t).view.read (Elt Ideal) (embOf (V c main_v39) (V c main_v15) (V c main_arg5)) := by
  show (cfg2.win 5).cut (grid2.coords t) ((dat2 (F := Ideal) V c).after 5 t) = _
  rw [after2_5]
  unfold out2_5
  rw [View.canon_unit_zero zero_off2]
  simp only [View.ld_unit_zero (S := S4000x1) zero_off2, View.ld_unit_zero (S := S4000x128) zero_off2, View.ld_unit_zero (S := S128) zero_off1]
  obtain ⟨e00, e01, e10, e11, e20, e30, e31, e40, e50, e51, e60, e61⟩ := block_index t
  refine funext fun (j : S4000x128.Idx) => ?_
  obtain ⟨p, e, rfl⟩ : ∃ (p : Fin 4000) (e : Fin 128), j = ix2 p e := ⟨j 0, j 1, eq_ix2 j⟩
  show k2_pay1 (F := Ideal) (iblk2 V c 1 t) (iblk2 V c 0 t) (iblk2 V c 2 t) (ix2 p e)
    = embOf (V c main_v39) (V c main_v15) (V c main_arg5) (((cfg2.win 5).blk t).view.emb (ix2 p e))
  refine (emb_at (iblk2 V c 1 t) (iblk2 V c 0 t) (iblk2 V c 2 t) p e).trans ?_
  have h0 : ((cfg2.win 0).blk t).view.emb (ix2 p e) = ((cfg2.win 5).blk t).view.emb (ix2 p e) := by
    funext a; apply Fin.ext
    match a with
    | ⟨0, _⟩ => show win2_0.index t (0 : Fin 2) * 4000 + 1 * p.val = win2_5.index t (0 : Fin 2) * 4000 + 1 * p.val; omega
    | ⟨1, _⟩ => show win2_0.index t (1 : Fin 2) * 128 + 1 * e.val = win2_5.index t (1 : Fin 2) * 128 + 1 * e.val; omega
  have h1 : ((cfg2.win 1).blk t).view.emb (ix2 p (0 : Fin 1))
      = ix2 (n0 := 100000) ((((cfg2.win 5).blk t).view.emb (ix2 p e)) 0) (0 : Fin 1) := by
    funext a; apply Fin.ext
    match a with
    | ⟨0, _⟩ => show win2_1.index t (0 : Fin 2) * 4000 + 1 * p.val = win2_5.index t (0 : Fin 2) * 4000 + 1 * p.val; omega
    | ⟨1, _⟩ => show win2_1.index t (1 : Fin 2) * 1 + 1 * 0 = 0; omega
  have h2 : ((cfg2.win 2).blk t).view.emb (ix1 e)
      = ix1 (n := 128) ((((cfg2.win 5).blk t).view.emb (ix2 p e)) 1) := by
    funext a; apply Fin.ext
    match a with
    | ⟨0, _⟩ => show win2_2.index t (0 : Fin 1) * 128 + 1 * e.val = win2_5.index t (1 : Fin 2) * 128 + 1 * e.val; omega
  have hA : iblk2 V c 0 t (ix2 p e : S4000x128.Idx) = V c main_v39 (((cfg2.win 5).blk t).view.emb (ix2 p e)) :=
    congrArg (V c main_v39) h0
  have hD : iblk2 V c 1 t (ix2 p (0 : Fin 1) : S4000x1.Idx)
      = V c main_v15 (ix2 (n0 := 100000) ((((cfg2.win 5).blk t).view.emb (ix2 p e)) 0) (0 : Fin 1)) :=
    congrArg (V c main_v15) h1
  have hB : iblk2 V c 2 t (ix1 e : S128.Idx) = V c main_arg5 (ix1 (n := 128) ((((cfg2.win 5).blk t).view.emb (ix2 p e)) 1)) :=
    congrArg (V c main_arg5) h2
  rw [hA, hD, hB]
  rfl

/-- An index of the embeddings array is in point `t`'s block iff each coordinate is in the block's range on its axis. -/
theorem mem_blk_emb (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v40_0).slice (win2_5.rect t)).set ↔ _
  rw [View.set_slice_whole, Rect.mem_set_unit]
  exact Iff.rfl

/-- Row `r` of the embeddings array lies in the block of point `r / 4000`. -/
theorem cover_emb (i : S100000x128.Idx) :
    ∃ t : Fin cfg2.N, (cfg2.win 5).flush t = true ∧ i ∈ ((cfg2.win 5).blk t).view.set := by
  have hN : grid2.N = 25 := N_2
  have hi0 : (i 0).val < 100000 := (i 0).isLt
  have hi1 : (i 1).val < 128 := (i 1).isLt
  obtain ⟨t, ht⟩ : ∃ t : Fin cfg2.N, t.val = (i 0).val / 4000 := ⟨⟨(i 0).val / 4000, by show _ < grid2.N; omega⟩, rfl⟩
  obtain ⟨-, -, -, -, -, -, -, -, e50, e51, -, -⟩ := block_index t
  refine ⟨t, flush2_5 t, ?_⟩
  rw [mem_blk_emb]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE EMBEDDINGS ARRAY after the region, at row `p`, lane `k`. -/
theorem final2_emb (c : Dev nD) (a : S100000x128.Idx → EReal) (d : S100000x1.Idx → EReal) (b : S128.Idx → EReal)
    (ha : V c main_v39 = a) (hd : V c main_v15 = d) (hb : V c main_arg5 = b) (p : Fin 100000) (k : Fin 128) :
    (dat2 (F := Ideal) V c).arrAt 5 cfg2.N (ix2 p k)
      = max (d (ix2 p (0 : Fin 1)) * a (ix2 p k) + b (ix1 k)) (Ideal.ofBits .f32 0x00000000#32) := by
  subst ha hd hb
  have h := (dat2 (F := Ideal) V c).arrAt_eq_of_cover 5 (embOf (V c main_v39) (V c main_v15) (V c main_arg5))
    (fun t _ => flushed_emb V c t) cover_emb
  exact congrFun h (ix2 p k)

/-! ## The logits output -/

/-- The logits as one function of the five arrays the region reads: at row `r`, class `q`, the row of embeddings
    against column `q` of the classifier's weights, plus the class's bias. -/
def logitsOf (a : S100000x128.Idx → EReal) (d : S100000x1.Idx → EReal) (b : S128.Idx → EReal)
    (wc : S128x2.Idx → EReal) (bc : S2.Idx → EReal) : S100000x2.Idx → EReal :=
  fun i => (∑ j : Fin 128, max (d (ix2 (n0 := 100000) (i 0) (0 : Fin 1)) * a (ix2 (n0 := 100000) (i 0) j) + b (ix1 j))
      (Ideal.ofBits .f32 0x00000000#32) * wc (ix2 (n1 := 2) j (i 1))) + bc (ix1 (n := 2) (i 1))

set_option maxHeartbeats 400000 in
/-- What point `t` writes back to the logits array is block `t` of `logitsOf` of the arrays as the region finds them. -/
theorem flushed_logits (c : Dev nD) (t : Fin cfg2.N) :
    (dat2 (F := Ideal) V c).flushed 6 t
      = ((cfg2.win 6).blk t).view.read (Elt Ideal)
          (logitsOf (V c main_v39) (V c main_v15) (V c main_arg5) (V c main_arg6) (V c main_arg7)) := by
  show (cfg2.win 6).cut (grid2.coords t) ((dat2 (F := Ideal) V c).after 6 t) = _
  rw [after2_6]
  unfold out2_6
  rw [View.canon_unit_zero zero_off2]
  simp only [View.ld_unit_zero (S := S4000x1) zero_off2, View.ld_unit_zero (S := S4000x128) zero_off2, View.ld_unit_zero (S := S128) zero_off1,
    View.ld_unit_zero (S := S128x2) zero_off2, View.ld_unit_zero (S := S2) zero_off1]
  obtain ⟨e00, e01, e10, e11, e20, e30, e31, e40, e50, e51, e60, e61⟩ := block_index t
  refine funext fun (j : S4000x2.Idx) => ?_
  obtain ⟨p, q, rfl⟩ : ∃ (p : Fin 4000) (q : Fin 2), j = ix2 p q := ⟨j 0, j 1, eq_ix2 j⟩
  show k2_pay2 (F := Ideal) (iblk2 V c 1 t) (iblk2 V c 0 t) (iblk2 V c 2 t) (iblk2 V c 3 t) (iblk2 V c 4 t) (ix2 p q)
    = logitsOf (V c main_v39) (V c main_v15) (V c main_arg5) (V c main_arg6) (V c main_arg7) (((cfg2.win 6).blk t).view.emb (ix2 p q))
  refine (logits_at (iblk2 V c 1 t) (iblk2 V c 0 t) (iblk2 V c 2 t) (iblk2 V c 3 t) (iblk2 V c 4 t) p q).trans ?_
  have h0 : ∀ k : Fin 128, ((cfg2.win 0).blk t).view.emb (ix2 p k)
      = ix2 (n0 := 100000) ((((cfg2.win 6).blk t).view.emb (ix2 p q)) 0) k := fun k => by
    funext a; apply Fin.ext
    match a with
    | ⟨0, _⟩ => show win2_0.index t (0 : Fin 2) * 4000 + 1 * p.val = win2_6.index t (0 : Fin 2) * 4000 + 1 * p.val; omega
    | ⟨1, _⟩ => show win2_0.index t (1 : Fin 2) * 128 + 1 * k.val = k.val; omega
  have h1 : ((cfg2.win 1).blk t).view.emb (ix2 p (0 : Fin 1))
      = ix2 (n0 := 100000) ((((cfg2.win 6).blk t).view.emb (ix2 p q)) 0) (0 : Fin 1) := by
    funext a; apply Fin.ext
    match a with
    | ⟨0, _⟩ => show win2_1.index t (0 : Fin 2) * 4000 + 1 * p.val = win2_6.index t (0 : Fin 2) * 4000 + 1 * p.val; omega
    | ⟨1, _⟩ => show win2_1.index t (1 : Fin 2) * 1 + 1 * 0 = 0; omega
  have h2 : ∀ k : Fin 128, ((cfg2.win 2).blk t).view.emb (ix1 k) = ix1 k := fun k => by
    funext a; apply Fin.ext
    match a with
    | ⟨0, _⟩ => show win2_2.index t (0 : Fin 1) * 128 + 1 * k.val = k.val; omega
  have h3 : ∀ k : Fin 128, ((cfg2.win 3).blk t).view.emb (ix2 k q)
      = ix2 (n1 := 2) k ((((cfg2.win 6).blk t).view.emb (ix2 p q)) 1) := fun k => by
    funext a; apply Fin.ext
    match a with
    | ⟨0, _⟩ => show win2_3.index t (0 : Fin 2) * 128 + 1 * k.val = k.val; omega
    | ⟨1, _⟩ => show win2_3.index t (1 : Fin 2) * 2 + 1 * q.val = win2_6.index t (1 : Fin 2) * 2 + 1 * q.val; omega
  have h4 : ((cfg2.win 4).blk t).view.emb (ix1 q) = ix1 (n := 2) ((((cfg2.win 6).blk t).view.emb (ix2 p q)) 1) := by
    funext a; apply Fin.ext
    match a with
    | ⟨0, _⟩ => show win2_4.index t (0 : Fin 1) * 2 + 1 * q.val = win2_6.index t (1 : Fin 2) * 2 + 1 * q.val; omega
  have hA : ∀ k : Fin 128, iblk2 V c 0 t (ix2 p k : S4000x128.Idx)
      = V c main_v39 (ix2 (n0 := 100000) ((((cfg2.win 6).blk t).view.emb (ix2 p q)) 0) k) := fun k => congrArg (V c main_v39) (h0 k)
  have hD : iblk2 V c 1 t (ix2 p (0 : Fin 1) : S4000x1.Idx)
      = V c main_v15 (ix2 (n0 := 100000) ((((cfg2.win 6).blk t).view.emb (ix2 p q)) 0) (0 : Fin 1)) := congrArg (V c main_v15) h1
  have hB : ∀ k : Fin 128, iblk2 V c 2 t (ix1 k : S128.Idx) = V c main_arg5 (ix1 k) := fun k => congrArg (V c main_arg5) (h2 k)
  have hW : ∀ k : Fin 128, iblk2 V c 3 t (ix2 k q : S128x2.Idx)
      = V c main_arg6 (ix2 (n1 := 2) k ((((cfg2.win 6).blk t).view.emb (ix2 p q)) 1)) := fun k => congrArg (V c main_arg6) (h3 k)
  have hC : iblk2 V c 4 t (ix1 q : S2.Idx) = V c main_arg7 (ix1 (n := 2) ((((cfg2.win 6).blk t).view.emb (ix2 p q)) 1)) :=
    congrArg (V c main_arg7) h4
  unfold logitsOf
  refine congrArg₂ (fun (u w : EReal) => u + w) (Finset.sum_congr rfl fun k _ => ?_) hC
  rw [hD, hA k, hB k, hW k]

/-- An index of the logits array is in point `t`'s block iff each coordinate is in the block's range on its axis. -/
theorem mem_blk_logits (t : Fin cfg2.N) (i : S100000x2.Idx) :
    i ∈ ((cfg2.win 6).blk t).view.set ↔ ∀ a : Fin 2, win2_6.index t a * S4000x2.size a ≤ (i a).val ∧ (i a).val < win2_6.index t a * S4000x2.size a + S4000x2.size a := by
  show i ∈ ((View.whole main_v40_1).slice (win2_6.rect t)).set ↔ _
  rw [View.set_slice_whole, Rect.mem_set_unit]
  exact Iff.rfl

/-- Row `r` of the logits array lies in the block of point `r / 4000`. -/
theorem cover_logits (i : S100000x2.Idx) :
    ∃ t : Fin cfg2.N, (cfg2.win 6).flush t = true ∧ i ∈ ((cfg2.win 6).blk t).view.set := by
  have hN : grid2.N = 25 := N_2
  have hi0 : (i 0).val < 100000 := (i 0).isLt
  have hi1 : (i 1).val < 2 := (i 1).isLt
  obtain ⟨t, ht⟩ : ∃ t : Fin cfg2.N, t.val = (i 0).val / 4000 := ⟨⟨(i 0).val / 4000, by show _ < grid2.N; omega⟩, rfl⟩
  obtain ⟨-, -, -, -, -, -, -, -, -, -, e60, e61⟩ := block_index t
  refine ⟨t, flush2_6 t, ?_⟩
  rw [mem_blk_logits]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 2 ≤ (i 1).val ∧ (i 1).val < win2_6.index t (1 : Fin 2) * 2 + 2; omega

/-- THE LOGITS ARRAY after the region, at row `p`, class `q`. -/
theorem final2_logits (c : Dev nD) (a : S100000x128.Idx → EReal) (d : S100000x1.Idx → EReal) (b : S128.Idx → EReal)
    (wc : S128x2.Idx → EReal) (bc : S2.Idx → EReal)
    (ha : V c main_v39 = a) (hd : V c main_v15 = d) (hb : V c main_arg5 = b) (hwc : V c main_arg6 = wc) (hbc : V c main_arg7 = bc)
    (p : Fin 100000) (q : Fin 2) :
    (dat2 (F := Ideal) V c).arrAt 6 cfg2.N (ix2 p q)
      = (∑ j : Fin 128, max (d (ix2 p (0 : Fin 1)) * a (ix2 p j) + b (ix1 j)) (Ideal.ofBits .f32 0x00000000#32) * wc (ix2 j q))
        + bc (ix1 q) := by
  subst ha hd hb hwc hbc
  have h := (dat2 (F := Ideal) V c).arrAt_eq_of_cover 6
    (logitsOf (V c main_v39) (V c main_v15) (V c main_arg5) (V c main_arg6) (V c main_arg7))
    (fun t _ => flushed_logits V c t) cover_logits
  exact congrFun h (ix2 p q)

end Cert.KernelIdeal.RegVal
end
-- ==== Proof.LibGcnNorm.lean ====
/-
  Graph convolution with the symmetric degree normalisation, entry by entry over the extended reals, in its two
  arrangements — every message weighted on its edge, or the rows scaled before and after the sum over messages — and
  the one law that joins them, for any numbers of nodes, messages and columns (`layerScaled_eq_layerEdge`); then the
  two-layer network with a linear head built from it (`embScaled_eq_embEdge`, `logitsOf`).

  Nodes `n : Fin N`, messages `e : Fin E` (the edges and one self loop per node).  Message `e` is read from the
  row `s e` and is added into node `n` exactly when `e ∈ L n`.  With `dinv n` the inverse square root of node
  `n`'s degree, one layer on features `H` is, at `(n, k)`,

      relu ( Σ_{e ∈ L n} H (s e) k · (dinv (s e) · dinv (d e))  +  b k )          (each message weighted on its edge)

  and, with the weight of the receiving node taken out of the sum,

      relu ( dinv n · Σ_{e ∈ L n} dinv (s e) · H (s e) k  +  b k )                (rows scaled before and after the sum)

  where `d e` is the node message `e` is addressed to, so `d e = n` for `e ∈ L n`.  The two agree because
  `dinv n` is a nonnegative real: multiplication by such a factor distributes over a sum of extended reals
  (it does not for a negative or an infinite factor), and products of extended reals commute and associate.
  The sums start from the accumulator's initial value `z`, which is the zero word.
-/
import Mathlib.Data.EReal.Operations
import Idealize.ShloMosaic.PureOps.Ideal

noncomputable section

open scoped BigOperators

namespace Cert.Gcn

variable {N E C : ℕ}

/-- A nonnegative finite factor goes inside a sum of extended reals that starts from zero. -/
theorem scale_sum {ι : Type} [DecidableEq ι] (L : Finset ι) (c : EReal) (hc0 : 0 ≤ c) (hct : c ≠ ⊤) (a : ι → EReal) :
    c * (0 + ∑ e ∈ L, a e) = 0 + ∑ e ∈ L, c * a e := by
  rw [zero_add, zero_add]
  induction L using Finset.induction_on with
  | empty => simp
  | insert x L hx ih =>
    rw [Finset.sum_insert hx, Finset.sum_insert hx, EReal.left_distrib_of_nonneg_of_ne_top hc0 hct, ih]

/-- The product of two rows of `A : m × k` and `B : k × n`, written over coordinates. -/
def rowsTimes {m k n : ℕ} (A : Fin m → Fin k → EReal) (B : Fin k → Fin n → EReal) (p : Fin m) (e : Fin n) : EReal :=
  ∑ j : Fin k, A p j * B j e

/-- One layer with the rows scaled before and after the sum over messages. -/
def layerScaled (dinv : Fin N → EReal) (s : Fin E → Fin N) (L : Fin N → Finset (Fin E)) (z : EReal)
    (H : Fin N → Fin C → EReal) (b : Fin C → EReal) (n : Fin N) (k : Fin C) : EReal :=
  max (dinv n * (z + ∑ e ∈ L n, dinv (s e) * H (s e) k) + b k) z

/-- One layer with each message weighted on its edge. -/
def layerEdge (dinv : Fin N → EReal) (s d : Fin E → Fin N) (L : Fin N → Finset (Fin E)) (z : EReal)
    (H : Fin N → Fin C → EReal) (b : Fin C → EReal) (n : Fin N) (k : Fin C) : EReal :=
  max ((z + ∑ e ∈ L n, H (s e) k * (dinv (s e) * dinv (d e))) + b k) z

/-- The two layers are one function when the weights are nonnegative reals, every message into `n` is addressed to
    `n`, and the sums start from zero. -/
theorem layerScaled_eq_layerEdge (dinv : Fin N → EReal) (hd : ∀ n, 0 ≤ dinv n ∧ dinv n ≠ ⊤) (s d : Fin E → Fin N)
    (L : Fin N → Finset (Fin E)) (hL : ∀ n, ∀ e ∈ L n, d e = n) (z : EReal) (hz : z = 0)
    (H : Fin N → Fin C → EReal) (b : Fin C → EReal) :
    layerScaled dinv s L z H b = layerEdge dinv s d L z H b := by
  funext n k
  unfold layerScaled layerEdge
  subst hz
  rw [scale_sum (L n) (dinv n) (hd n).1 (hd n).2]
  congr 2
  congr 1
  refine Finset.sum_congr rfl fun e he => ?_
  rw [hL n e he, mul_comm (dinv n) _, mul_comm (dinv (s e)) (H (s e) k), mul_assoc]

/-- The embeddings: two layers, the second on the first's output times `W2`. -/
def embScaled (dinv : Fin N → EReal) (s : Fin E → Fin N) (L : Fin N → Finset (Fin E)) (z : EReal)
    (x : Fin N → Fin 32 → EReal) (W1 : Fin 32 → Fin 128 → EReal) (b1 : Fin 128 → EReal)
    (W2 : Fin 128 → Fin 128 → EReal) (b2 : Fin 128 → EReal) : Fin N → Fin 128 → EReal :=
  layerScaled dinv s L z (rowsTimes (layerScaled dinv s L z (rowsTimes x W1) b1) W2) b2

def embEdge (dinv : Fin N → EReal) (s d : Fin E → Fin N) (L : Fin N → Finset (Fin E)) (z : EReal)
    (x : Fin N → Fin 32 → EReal) (W1 : Fin 32 → Fin 128 → EReal) (b1 : Fin 128 → EReal)
    (W2 : Fin 128 → Fin 128 → EReal) (b2 : Fin 128 → EReal) : Fin N → Fin 128 → EReal :=
  layerEdge dinv s d L z (rowsTimes (layerEdge dinv s d L z (rowsTimes x W1) b1) W2) b2

theorem embScaled_eq_embEdge (dinv : Fin N → EReal) (hd : ∀ n, 0 ≤ dinv n ∧ dinv n ≠ ⊤) (s d : Fin E → Fin N)
    (L : Fin N → Finset (Fin E)) (hL : ∀ n, ∀ e ∈ L n, d e = n) (z : EReal) (hz : z = 0)
    (x : Fin N → Fin 32 → EReal) (W1 : Fin 32 → Fin 128 → EReal) (b1 : Fin 128 → EReal)
    (W2 : Fin 128 → Fin 128 → EReal) (b2 : Fin 128 → EReal) :
    embScaled dinv s L z x W1 b1 W2 b2 = embEdge dinv s d L z x W1 b1 W2 b2 := by
  unfold embScaled embEdge
  rw [layerScaled_eq_layerEdge dinv hd s d L hL z hz, layerScaled_eq_layerEdge dinv hd s d L hL z hz]

/-- The class scores: the embeddings times `Wc` plus the bias. -/
def logitsOf (emb : Fin N → Fin 128 → EReal) (Wc : Fin 128 → Fin 2 → EReal) (bc : Fin 2 → EReal)
    (n : Fin N) (c : Fin 2) : EReal :=
  rowsTimes emb Wc n c + bc c

end Cert.Gcn

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.KFold.lean ====
/-
  The kernel's two results, entry by entry, as the specification's functions of the argument arrays.

  Region 0 writes the rows of x·W1, each scaled by its node's weight.  The host then adds, into every node, the rows of
  that array at the sources of the messages landing on it.  Region 1 scales the sums by the receiving node's weight, adds
  the bias, rectifies — that is the first layer, rows scaled before and after the sum — and writes the rows of
  (layer 1)·W2 scaled again.  The host aggregates again, and region 2 finishes the second layer the same way (the
  embeddings) and multiplies by the classifier's weights and adds its bias (the logits).  Read at an index, each
  region's array is the previous one's formula with one more step; unfolding the specification's definitions shows the
  two sides are the same expression.
-/
import proofs.«128778_j61572651155681_2_alg».proof.Proof.KHost
import proofs.«128778_j61572651155681_2_alg».proof.Proof.KAgg
import proofs.«128778_j61572651155681_2_alg».proof.Proof.KReg0
import proofs.«128778_j61572651155681_2_alg».proof.Proof.KReg1
import proofs.«128778_j61572651155681_2_alg».proof.Proof.KReg2
import proofs.«128778_j61572651155681_2_alg».proof.Proof.LibGcnNorm
import proofs.«128778_j61572651155681_2_alg».proof.Proof.LibRowwise

set_option maxRecDepth 16384

noncomputable section

open scoped BigOperators

namespace Cert.KernelIdeal.KVal

open Cert.KernelIdeal Cert.KernelIdeal.Gen Cert.KernelIdeal.HostVal Cert.KernelIdeal.RegVal
open Cert.ReferenceIdeal.RefVal (dinvOf srcOf landOf zeroW)
open Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments over coordinates -/

abbrev X (c : Dev nD) : Fin 100000 → Fin 32 → EReal := fun p j => (m ((c.tc : Thread nD τ).loc main_arg0) : S100000x32.Idx → EReal) (ix2 p j)
abbrev W1 (c : Dev nD) : Fin 32 → Fin 128 → EReal := fun j e => (m ((c.tc : Thread nD τ).loc main_arg2) : S32x128.Idx → EReal) (ix2 j e)
abbrev B1 (c : Dev nD) : Fin 128 → EReal := fun e => (m ((c.tc : Thread nD τ).loc main_arg3) : S128.Idx → EReal) (ix1 e)
abbrev W2 (c : Dev nD) : Fin 128 → Fin 128 → EReal := fun j e => (m ((c.tc : Thread nD τ).loc main_arg4) : S128x128.Idx → EReal) (ix2 j e)
abbrev B2 (c : Dev nD) : Fin 128 → EReal := fun e => (m ((c.tc : Thread nD τ).loc main_arg5) : S128.Idx → EReal) (ix1 e)
abbrev Wc (c : Dev nD) : Fin 128 → Fin 2 → EReal := fun j q => (m ((c.tc : Thread nD τ).loc main_arg6) : S128x2.Idx → EReal) (ix2 j q)
abbrev Bc (c : Dev nD) : Fin 2 → EReal := fun q => (m ((c.tc : Thread nD τ).loc main_arg7) : S2.Idx → EReal) (ix1 q)

/-- The first layer, rows scaled before and after the sum. -/
abbrev L1 (c : Dev nD) : Fin 100000 → Fin 128 → EReal :=
  layerScaled (dinvOf (edges m c)) (srcOf (edges m c)) (landOf (edges m c)) zeroW (rowsTimes (X m c) (W1 m c)) (B1 m c)

/-- The weights column read at a row is the node's weight. -/
theorem dinv2_apply (x1 : (⟨Cert.ReferenceIdeal.S2x1600000, .i32⟩ : BufTy).Contents (Elt Ideal)) (p : Fin 100000) :
    shapeCast S100000x1 (Cert.ReferenceIdeal.ReadP.val_main_v14 (F := Ideal) x1) shapeCasts_S100000_S100000x1 (ix2 p (0 : Fin 1))
      = dinvOf x1 p :=
  (Cert.LibRowwise.shapeCast_a_a1_apply _ _ p 0).trans rfl

/-! ## The second and third stretches aggregate the previous region's output -/

section Steps

variable (V : Valuation τ sig (Elt Ideal))

set_option maxHeartbeats 400000 in
/-- The second stretch, over any starting contents: at its result buffer, the aggregation of three buffers' contents. -/
theorem step_agg1 :
    StableHlo.after hostOps1 V (Proc.devRef .tc main_v27)
      = aggregate (V (Proc.devRef .tc main_v16)) (V (Proc.devRef .tc main_v3)) (V (Proc.devRef .tc main_v6)) := by
  dsimp only [hostOps1]
  after_results
  rfl

set_option maxHeartbeats 400000 in
/-- The third stretch, likewise. -/
theorem step_agg2 :
    StableHlo.after hostOps2 V (Proc.devRef .tc main_v39)
      = aggregate (V (Proc.devRef .tc main_v28)) (V (Proc.devRef .tc main_v3)) (V (Proc.devRef .tc main_v6)) := by
  dsimp only [hostOps2]
  after_results
  rfl

end Steps

theorem W5_agg (c : Dev nD) :
    W5 m ρ c (Proc.devRef .tc main_v27)
      = aggregate (W4 m ρ c (Proc.devRef .tc main_v16)) (W4 m ρ c (Proc.devRef .tc main_v3)) (W4 m ρ c (Proc.devRef .tc main_v6)) :=
  step_agg1 (W4 m ρ c)

theorem W7_agg (c : Dev nD) :
    W7 m ρ c (Proc.devRef .tc main_v39)
      = aggregate (W6 m ρ c (Proc.devRef .tc main_v28)) (W6 m ρ c (Proc.devRef .tc main_v3)) (W6 m ρ c (Proc.devRef .tc main_v6)) :=
  step_agg2 (W6 m ρ c)

/-! ## Region by region -/

/-- Region 0's output: the rows of x·W1, each scaled by its node's weight. -/
theorem out0_apply (c : Dev nD) (p : Fin 100000) (e : Fin 128) :
    (W4 m ρ c (Proc.devRef .tc main_v16) : S100000x128.Idx → EReal) (ix2 p e)
      = dinvOf (edges m c) p * rowsTimes (X m c) (W1 m c) p e := by
  rw [W4_out]
  refine (final0 (V3 m ρ) c _ _ _ (W3_arg0 m ρ c) (W3_arg2 m ρ c) (W3_dinv2 m ρ c) p e).trans ?_
  rw [dinv2_apply]
  rfl

/-- The first aggregation, at a node and a column. -/
theorem agg1_apply (c : Dev nD) (n : Fin 100000) (j : Fin 128) :
    (W5 m ρ c (Proc.devRef .tc main_v27) : S100000x128.Idx → EReal) (ix2 n j)
      = zeroW + ∑ e ∈ landOf (edges m c) n,
          dinvOf (edges m c) (srcOf (edges m c) e) * rowsTimes (X m c) (W1 m c) (srcOf (edges m c) e) j := by
  rw [W5_agg, W4_src, W4_dst, aggregate_apply]
  exact congrArg (fun s => zeroW + s) (Finset.sum_congr rfl fun e _ => out0_apply m ρ c _ _)

/-- Region 1's output: the rows of (layer 1)·W2, each scaled by its node's weight. -/
theorem out1_apply (c : Dev nD) (p : Fin 100000) (e : Fin 128) :
    (W6 m ρ c (Proc.devRef .tc main_v28) : S100000x128.Idx → EReal) (ix2 p e)
      = dinvOf (edges m c) p * rowsTimes (L1 m c) (W2 m c) p e := by
  rw [W6_out]
  refine (final1 (V5 m ρ) c (W5 m ρ c (Proc.devRef .tc main_v27)) _ _ _ rfl (W5_dinv2 m ρ c) (W5_arg3 m ρ c) (W5_arg4 m ρ c) p e).trans ?_
  rw [dinv2_apply]
  unfold rowsTimes
  refine congrArg (fun s => dinvOf (edges m c) p * s) ?_
  refine Finset.sum_congr rfl fun j _ => ?_
  rw [agg1_apply]
  rfl

/-- The second aggregation, at a node and a column. -/
theorem agg2_apply (c : Dev nD) (n : Fin 100000) (j : Fin 128) :
    (W7 m ρ c (Proc.devRef .tc main_v39) : S100000x128.Idx → EReal) (ix2 n j)
      = zeroW + ∑ e ∈ landOf (edges m c) n,
          dinvOf (edges m c) (srcOf (edges m c) e) * rowsTimes (L1 m c) (W2 m c) (srcOf (edges m c) e) j := by
  rw [W7_agg, W6_src, W6_dst, aggregate_apply]
  exact congrArg (fun s => zeroW + s) (Finset.sum_congr rfl fun e _ => out1_apply m ρ c _ _)

/-- THE EMBEDDINGS the kernel ends with. -/
theorem kernel_emb (c : Dev nD) (n : Fin 100000) (k : Fin 128) :
    (W8 m ρ c (Proc.devRef .tc main_v40_0) : S100000x128.Idx → EReal) (ix2 n k)
      = embScaled (dinvOf (edges m c)) (srcOf (edges m c)) (landOf (edges m c)) zeroW (X m c) (W1 m c) (B1 m c) (W2 m c) (B2 m c) n k := by
  rw [W8_emb]
  refine (final2_emb (V7 m ρ) c (W7 m ρ c (Proc.devRef .tc main_v39)) _ _ rfl (W7_dinv2 m ρ c) (W7_arg5 m ρ c) n k).trans ?_
  rw [dinv2_apply, agg2_apply]
  rfl

/-- THE LOGITS the kernel ends with. -/
theorem kernel_logits (c : Dev nD) (n : Fin 100000) (q : Fin 2) :
    (W8 m ρ c (Proc.devRef .tc main_v40_1) : S100000x2.Idx → EReal) (ix2 n q)
      = Cert.Gcn.logitsOf (embScaled (dinvOf (edges m c)) (srcOf (edges m c)) (landOf (edges m c)) zeroW (X m c) (W1 m c) (B1 m c) (W2 m c) (B2 m c))
          (Wc m c) (Bc m c) n q := by
  rw [W8_logits]
  refine (final2_logits (V7 m ρ) c (W7 m ρ c (Proc.devRef .tc main_v39)) _ _ _ _ rfl (W7_dinv2 m ρ c) (W7_arg5 m ρ c) (W7_arg6 m ρ c)
    (W7_arg7 m ρ c) n q).trans ?_
  rw [dinv2_apply]
  unfold Cert.Gcn.logitsOf rowsTimes
  refine congrArg (fun s => s + Bc m c q) ?_
  refine Finset.sum_congr rfl fun j _ => ?_
  rw [agg2_apply]
  rfl

end Cert.KernelIdeal.KVal

end
-- ==== Proof.LibVecGather.lean ====
/-
  A gather from a vector read at an index, over abstract extents `N` (entries of the table) and `E` (number of start
  indices).

  `stablehlo.gather` of a table `x : [N]` at start indices `idx : [E, 1]` with no offset axis, collapsed axis 0, start
  index map `[0]`, index vector axis 1 and slice sizes `[1]` (what taking entries `x[src]` is) reads, at `e`, the table
  at the entry `idx[e, 0]` names — the word read as a SIGNED integer and CLAMPED into `[0, N − 1]`: the one operand axis
  is collapsed and named by the start index map, so its coordinate is the clamped start, with no batching and no
  offset coordinate.
-/
import Idealize.ShloMosaic.PureOps.Ideal
import Idealize.ShloMosaic.Lib.ValueIdx
import proofs.«128778_j61572651155681_2_alg».proof.Proof.LibSegment

noncomputable section

namespace Cert.LibVecGather

open Idealize.ShloMosaic Idealize.ShloMosaic.ValueIdx Cert.LibSegment

/-- The dimension numbers of a gather from a vector: operand `[N]`, start indices `[E, 1]`, result `[E]`; their
    conditions `wf` are decided on a program's literal shapes. -/
abbrev vecGatherDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the table at the entry `idx[e, 0]` names (signed, clamped into `[0, N − 1]`). -/
theorem vecGather_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  -- the one axis is collapsed and named by the start index map: the coordinate is the clamped start
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVecGather

end
-- ==== Proof.RefValue.lean ====
/-
  The reference's value, entry by entry: its embeddings are the two-layer graph convolution with each message weighted
  on its edge, and its class scores are those embeddings times the head's weights plus the head's bias.

  One layer of the reference takes rows of a table `T` at the messages' source rows, multiplies each by the message's
  weight `dinv (s e) · dinv (d e)` (broadcast along the columns), adds the products into the rows the messages are
  addressed to, starting from zero, adds the bias (broadcast along the rows) and takes the maximum with zero.  Read at
  `(n, k)` that is `max ((0 + Σ_{e lands on n} T (s e) k · (dinv (s e) · dinv (d e))) + b k) 0`.  The table is the
  features times the layer's weights, a sum over the contracted coordinate.
-/
import proofs.«128778_j61572651155681_2_alg».proof.Proof.RefGraph
import proofs.«128778_j61572651155681_2_alg».proof.Proof.LibGcnNorm
import proofs.«128778_j61572651155681_2_alg».proof.Proof.LibVecGather
import Idealize.ShloMosaic.PureOps.Ideal.Laws

noncomputable section

open scoped BigOperators

namespace Cert.ReferenceIdeal.RefVal

open Cert.ReferenceIdeal Cert.ReferenceIdeal.Gen Cert.ReferenceIdeal.ReadP Cert.LibSegment Cert.LibVecGather Cert.Gcn
open Idealize.ShloMosaic Idealize.ShloMosaic.ValueIdx

/-! ## The program's dimension records are the general ones -/

theorem vecGather_rec :
    gather_S100000_S1700000x1_S1700000_n_0_n_n_0_1_1
      = vecGatherDims 100000 1700000 Facts₀.gather_S100000_S1700000x1_S1700000_n_0_n_n_0_1_1_wf := rfl

theorem rowGather_rec :
    gather_S100000x128_S1700000x1_S1700000x128_1_0_n_n_0_1_1128
      = rowGatherDims 100000 1700000 128 Facts₀.gather_S100000x128_S1700000x1_S1700000x128_1_0_n_n_0_1_1128_wf := rfl

theorem rowScatter_rec :
    scatter_S100000x128_S1700000x1_S1700000x128_1_0_0_1
      = rowScatterDims 100000 1700000 128 Facts₀.scatter_S100000x128_S1700000x1_S1700000x128_1_0_0_1_wf := rfl

/-! ## The weights of the messages -/

/-- A gather from a vector at the program's record, read at a message. -/
theorem vecGather_read (t : S100000.Idx → EReal) (idx : IVec S1700000x1 32) (e : Fin 1700000) :
    Host.gather gather_S100000_S1700000x1_S1700000_n_0_n_n_0_1_1 t idx (ix1 e)
      = t (ix1 (clampRow 100000 (by decide) (idx (ix2 e (0 : Fin 1))))) := by
  rw [vecGather_rec]
  exact vecGather_apply (by decide) _ t idx e

/-- The weight gathered at the source of message `e`. -/
theorem wsrc_apply (x1 : (⟨S2x1600000, .i32⟩ : BufTy).Contents (Elt Ideal)) (e : Fin 1700000) :
    val_main_v21 (F := Ideal) x1 (ix1 e) = dinvOf x1 (srcOf x1 e) := by
  unfold val_main_v21 dinvOf srcOf
  generalize val_main_v14 (F := Ideal) x1 = t
  generalize val_main_v20 (F := Ideal) x1 = idx
  exact vecGather_read t idx e

/-- The weight gathered at the node message `e` is addressed to. -/
theorem wdst_apply (x1 : (⟨S2x1600000, .i32⟩ : BufTy).Contents (Elt Ideal)) (e : Fin 1700000) :
    val_main_v28 (F := Ideal) x1 (ix1 e) = dinvOf x1 (dstOf x1 e) := by
  unfold val_main_v28 dinvOf dstOf
  generalize val_main_v14 (F := Ideal) x1 = t
  generalize val_main_v27 (F := Ideal) x1 = idx
  exact vecGather_read t idx e

/-- The weight of message `e`: the product of the weights of its two ends. -/
theorem norm_apply (x1 : (⟨S2x1600000, .i32⟩ : BufTy).Contents (Elt Ideal)) (e : Fin 1700000) :
    val_main_v29 (F := Ideal) x1 (ix1 e) = dinvOf x1 (srcOf x1 e) * dinvOf x1 (dstOf x1 e) := by
  rw [val_main_v29_apply, wsrc_apply, wdst_apply]
  rfl

/-! ## One layer, over a variable table -/

/-- The segment sum of gathered rows times weights, at the program's records, read at `(n, k)`. -/
theorem segsum_read (T : S100000x128.Idx → EReal) (iS iD : IVec S1700000x1 32) (Z : S100000x128.Idx → EReal)
    (W : S1700000x128.Idx → EReal) (n : Fin 100000) (k : Fin 128) :
    Host.scatterAdd (F := Ideal) (φ := .f32) scatter_S100000x128_S1700000x1_S1700000x128_1_0_0_1 Z iD
        (mulf (F := Ideal) (φ := .f32) (Host.gather gather_S100000x128_S1700000x1_S1700000x128_1_0_n_n_0_1_1128 T iS) W) (ix2 n k)
      = Z (ix2 n k) + ∑ e ∈ landing iD n, T (ix2 (clampRow 100000 (by decide) (iS (ix2 e (0 : Fin 1)))) k) * W (ix2 e k) := by
  rw [rowScatter_rec, rowGather_rec]
  show Ideal.hostScatterAdd _ Z iD _ (ix2 n k) = _
  rw [rowScatterAdd_apply]
  refine congrArg (fun s => Z (ix2 n k) + s) ?_
  refine Finset.sum_congr rfl fun e _ => ?_
  rw [mulf_apply, rowGather_apply (by decide)]

/-- One layer of the reference over a table `T`, a start array `Z`, a weight array `W`, a bias array `B` and a floor
    array `R`, each known entry by entry: the layer with each message weighted on its edge. -/
theorem layer_read (x1 : (⟨S2x1600000, .i32⟩ : BufTy).Contents (Elt Ideal))
    (T Z : S100000x128.Idx → EReal) (W : S1700000x128.Idx → EReal) (B R : S100000x128.Idx → EReal)
    (H : Fin 100000 → Fin 128 → EReal) (b : Fin 128 → EReal)
    (hT : ∀ p k, T (ix2 p k) = H p k) (hZ : ∀ n k, Z (ix2 n k) = zeroW)
    (hW : ∀ e k, W (ix2 e k) = dinvOf x1 (srcOf x1 e) * dinvOf x1 (dstOf x1 e))
    (hB : ∀ n k, B (ix2 n k) = b k) (hR : ∀ n k, R (ix2 n k) = zeroW) (n : Fin 100000) (k : Fin 128) :
    maximumf (F := Ideal) (φ := .f32)
        (addf (F := Ideal) (φ := .f32)
          (Host.scatterAdd (F := Ideal) (φ := .f32) scatter_S100000x128_S1700000x1_S1700000x128_1_0_0_1 Z (val_main_v9 (F := Ideal) x1)
            (mulf (F := Ideal) (φ := .f32)
              (Host.gather gather_S100000x128_S1700000x1_S1700000x128_1_0_n_n_0_1_1128 T (val_main_v20 (F := Ideal) x1)) W)) B) R (ix2 n k)
      = layerEdge (dinvOf x1) (srcOf x1) (dstOf x1) (landOf x1) zeroW H b n k := by
  rw [maximumf_apply, addf_apply, segsum_read, hZ, hB, hR]
  unfold layerEdge landOf
  refine congrArg (fun s => max (zeroW + s + b k) zeroW) ?_
  refine Finset.sum_congr rfl fun e _ => ?_
  rw [hT, hW]
  rfl

/-! ## The index arrays the later stages rebuild are the first ones -/

set_option maxHeartbeats 400000 in
theorem src36 (x1 : (⟨S2x1600000, .i32⟩ : BufTy).Contents (Elt Ideal)) :
    val_main_v36 (F := Ideal) x1 = val_main_v20 (F := Ideal) x1 := rfl

set_option maxHeartbeats 400000 in
theorem src54 (x1 : (⟨S2x1600000, .i32⟩ : BufTy).Contents (Elt Ideal)) :
    val_main_v54 (F := Ideal) x1 = val_main_v20 (F := Ideal) x1 := rfl

theorem dst42 (x1 : (⟨S2x1600000, .i32⟩ : BufTy).Contents (Elt Ideal)) :
    val_main_v42 (F := Ideal) x1 = val_main_v9 (F := Ideal) x1 := rfl

theorem dst60 (x1 : (⟨S2x1600000, .i32⟩ : BufTy).Contents (Elt Ideal)) :
    val_main_v60 (F := Ideal) x1 = val_main_v9 (F := Ideal) x1 := rfl

/-! ## The arrays a layer is made of, entry by entry -/

/-- The first table: the features times the first weights. -/
theorem dense1 (x0 : (⟨S100000x32, .f32⟩ : BufTy).Contents (Elt Ideal)) (x2 : (⟨S32x128, .f32⟩ : BufTy).Contents (Elt Ideal)) (p : Fin 100000) (k : Fin 128) :
    val_main_v30 (F := Ideal) x0 x2 (ix2 p k) = rowsTimes (fun p j => x0 (ix2 p j)) (fun j e => x2 (ix2 j e)) p k := by
  rw [val_main_v30_apply]
  unfold rowsTimes
  refine Finset.sum_congr rfl fun j _ => ?_
  have el : lidx_main_v30 (ix2 p k) j = ix2 p j := funext fun a => by
    match a with
    | ⟨0, _⟩ => rfl
    | ⟨1, _⟩ => rfl
  have er : ridx_main_v30 (ix2 p k) j = ix2 j k := funext fun a => by
    match a with
    | ⟨0, _⟩ => rfl
    | ⟨1, _⟩ => rfl
  rw [el, er]

/-- The first layer's sums start from the zero word. -/
theorem zero41 (n : Fin 100000) (k : Fin 128) : val_main_v41 (F := Ideal) (ix2 n k) = zeroW := by
  rw [val_main_v41_apply, val_main_cst_8_apply]
  rfl

/-- The first layer's weight array: the message's weight in every column. -/
theorem norm39 (x1 : (⟨S2x1600000, .i32⟩ : BufTy).Contents (Elt Ideal)) (e : Fin 1700000) (k : Fin 128) :
    val_main_v39 (F := Ideal) x1 (ix2 e k) = dinvOf x1 (srcOf x1 e) * dinvOf x1 (dstOf x1 e) := by
  rw [val_main_v39_apply, val_main_v38_apply]
  have ei : idx_main_v38 (idx_main_v39 (ix2 e k)) = ix1 e := funext fun a => by
    match a with
    | ⟨0, _⟩ => rfl
  rw [ei, norm_apply]

/-- The first layer's bias array: the bias of the column in every row. -/
theorem bias45 (x3 : (⟨S128, .f32⟩ : BufTy).Contents (Elt Ideal)) (n : Fin 100000) (k : Fin 128) :
    val_main_v45 (F := Ideal) x3 (ix2 n k) = x3 (ix1 k) := by
  rw [val_main_v45_apply, val_main_v44_apply]
  have ei : idx_main_v44 (idx_main_v45 (ix2 n k)) = ix1 k := funext fun a => by
    match a with
    | ⟨0, _⟩ => rfl
  rw [ei]

/-- The first rectifier compares with the zero word. -/
theorem floor1 (n : Fin 100000) (k : Fin 128) : val_main_call1_v0 (F := Ideal) (ix2 n k) = zeroW := by
  rw [val_main_call1_v0_apply, val_main_call1_cst_apply]
  rfl

/-! ## The first layer -/

theorem layer1 (x0 : (⟨S100000x32, .f32⟩ : BufTy).Contents (Elt Ideal)) (x1 : (⟨S2x1600000, .i32⟩ : BufTy).Contents (Elt Ideal)) (x2 : (⟨S32x128, .f32⟩ : BufTy).Contents (Elt Ideal)) (x3 : (⟨S128, .f32⟩ : BufTy).Contents (Elt Ideal)) (n : Fin 100000) (k : Fin 128) :
    val_main_v47 (F := Ideal) x0 x1 x2 x3 (ix2 n k)
      = layerEdge (dinvOf x1) (srcOf x1) (dstOf x1) (landOf x1) zeroW
          (rowsTimes (fun p j => x0 (ix2 p j)) (fun j e => x2 (ix2 j e))) (fun e => x3 (ix1 e)) n k := by
  unfold val_main_v47 val_main_v46 val_main_v43 val_main_v40 val_main_v37
  rw [dst42, src36]
  exact layer_read x1 _ _ _ _ _ _ _ (dense1 x0 x2) zero41 (norm39 x1) (bias45 x3) floor1 n k

/-! ## The second layer -/

/-- The second table: the first layer's output times the second weights. -/
theorem dense2 (x0 : (⟨S100000x32, .f32⟩ : BufTy).Contents (Elt Ideal)) (x1 : (⟨S2x1600000, .i32⟩ : BufTy).Contents (Elt Ideal)) (x2 : (⟨S32x128, .f32⟩ : BufTy).Contents (Elt Ideal)) (x3 : (⟨S128, .f32⟩ : BufTy).Contents (Elt Ideal)) (x4 : (⟨S128x128, .f32⟩ : BufTy).Contents (Elt Ideal)) (p : Fin 100000) (k : Fin 128) :
    val_main_v48 (F := Ideal) x0 x1 x2 x3 x4 (ix2 p k)
      = rowsTimes (layerEdge (dinvOf x1) (srcOf x1) (dstOf x1) (landOf x1) zeroW
          (rowsTimes (fun p j => x0 (ix2 p j)) (fun j e => x2 (ix2 j e))) (fun e => x3 (ix1 e)))
          (fun j e => x4 (ix2 j e)) p k := by
  rw [val_main_v48_apply]
  refine Finset.sum_congr rfl fun j _ => ?_
  have el : lidx_main_v48 (ix2 p k) j = ix2 p j := funext fun a => by
    match a with
    | ⟨0, _⟩ => rfl
    | ⟨1, _⟩ => rfl
  have er : ridx_main_v48 (ix2 p k) j = ix2 j k := funext fun a => by
    match a with
    | ⟨0, _⟩ => rfl
    | ⟨1, _⟩ => rfl
  rw [el, er, layer1]

/-- The second layer's sums start from the zero word. -/
theorem zero59 (n : Fin 100000) (k : Fin 128) : val_main_v59 (F := Ideal) (ix2 n k) = zeroW := by
  rw [val_main_v59_apply, val_main_cst_11_apply]
  rfl

/-- The second layer's weight array: the message's weight in every column. -/
theorem norm57 (x1 : (⟨S2x1600000, .i32⟩ : BufTy).Contents (Elt Ideal)) (e : Fin 1700000) (k : Fin 128) :
    val_main_v57 (F := Ideal) x1 (ix2 e k) = dinvOf x1 (srcOf x1 e) * dinvOf x1 (dstOf x1 e) := by
  rw [val_main_v57_apply, val_main_v56_apply]
  have ei : idx_main_v56 (idx_main_v57 (ix2 e k)) = ix1 e := funext fun a => by
    match a with
    | ⟨0, _⟩ => rfl
  rw [ei, norm_apply]

/-- The second layer's bias array: the bias of the column in every row. -/
theorem bias63 (x5 : (⟨S128, .f32⟩ : BufTy).Contents (Elt Ideal)) (n : Fin 100000) (k : Fin 128) :
    val_main_v63 (F := Ideal) x5 (ix2 n k) = x5 (ix1 k) := by
  rw [val_main_v63_apply, val_main_v62_apply]
  have ei : idx_main_v62 (idx_main_v63 (ix2 n k)) = ix1 k := funext fun a => by
    match a with
    | ⟨0, _⟩ => rfl
  rw [ei]

/-- The second rectifier compares with the zero word. -/
theorem floor2 (n : Fin 100000) (k : Fin 128) : val_main_call2_v0 (F := Ideal) (ix2 n k) = zeroW := by
  rw [val_main_call2_v0_apply, val_main_call2_cst_apply]
  rfl

/-- THE REFERENCE'S EMBEDDINGS, entry by entry: two layers, each message weighted on its edge. -/
theorem ref_emb (x0 : (⟨S100000x32, .f32⟩ : BufTy).Contents (Elt Ideal)) (x1 : (⟨S2x1600000, .i32⟩ : BufTy).Contents (Elt Ideal)) (x2 : (⟨S32x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (n : Fin 100000) (k : Fin 128) :
    val_main_v65 (F := Ideal) x0 x1 x2 x3 x4 x5 (ix2 n k)
      = embEdge (dinvOf x1) (srcOf x1) (dstOf x1) (landOf x1) zeroW (fun p j => x0 (ix2 p j)) (fun j e => x2 (ix2 j e))
          (fun e => x3 (ix1 e)) (fun j e => x4 (ix2 j e)) (fun e => x5 (ix1 e)) n k := by
  unfold val_main_v65 val_main_v64 val_main_v61 val_main_v58 val_main_v55 embEdge
  rw [dst60, src54]
  exact layer_read x1 _ _ _ _ _ _ _ (dense2 x0 x1 x2 x3 x4) zero59 (norm57 x1) (bias63 x5) floor2 n k

/-! ## The class scores -/

/-- THE REFERENCE'S CLASS SCORES, entry by entry: the embeddings times the head's weights plus the head's bias. -/
theorem ref_logits (x0 : (⟨S100000x32, .f32⟩ : BufTy).Contents (Elt Ideal)) (x1 : (⟨S2x1600000, .i32⟩ : BufTy).Contents (Elt Ideal)) (x2 : (⟨S32x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x2, .f32⟩ : BufTy).Contents (Elt Ideal)) (x7 : (⟨S2, .f32⟩ : BufTy).Contents (Elt Ideal)) (n : Fin 100000) (q : Fin 2) :
    val_main_v69 (F := Ideal) x0 x1 x2 x3 x4 x5 x6 x7 (ix2 n q)
      = logitsOf (embEdge (dinvOf x1) (srcOf x1) (dstOf x1) (landOf x1) zeroW (fun p j => x0 (ix2 p j)) (fun j e => x2 (ix2 j e))
          (fun e => x3 (ix1 e)) (fun j e => x4 (ix2 j e)) (fun e => x5 (ix1 e)))
          (fun j q => x6 (ix2 j q)) (fun q => x7 (ix1 q)) n q := by
  rw [val_main_v69_apply, val_main_v66_apply, val_main_v68_apply, val_main_v67_apply]
  have ei : idx_main_v67 (idx_main_v68 (ix2 n q)) = ix1 q := funext fun a => by
    match a with
    | ⟨0, _⟩ => rfl
  rw [ei]
  unfold logitsOf
  refine congrArg (fun s => s + x7 (ix1 q)) ?_
  refine Finset.sum_congr rfl fun j _ => ?_
  have el : lidx_main_v66 (ix2 n q) j = ix2 n j := funext fun a => by
    match a with
    | ⟨0, _⟩ => rfl
    | ⟨1, _⟩ => rfl
  have er : ridx_main_v66 (ix2 n q) j = ix2 j q := funext fun a => by
    match a with
    | ⟨0, _⟩ => rfl
    | ⟨1, _⟩ => rfl
  rw [el, er, ref_emb]

end Cert.ReferenceIdeal.RefVal

end
-- ==== Proof.GraphFacts.lean ====
/-
  Two facts about the graph data, whatever the edge array holds.

  * A node's weight is a nonnegative REAL.  It is `rsqrt deg` where `deg > 0` and the zero word elsewhere; where
    `deg > 0` the degree is `+∞`, whose inverse square root is `0`, or a positive real `r`, whose inverse square
    root is the real `(√r)⁻¹ ≥ 0`.  Nothing is asked of the degree itself.
  * A message that lands on node `n` is addressed to `n`: landing means its index word, read as a signed integer, IS
    `n` — so it is not negative, the move-up of negative indices leaves it alone, and clamping `n < 100000` into the
    table's rows returns `n`.
-/
import proofs.«128778_j61572651155681_2_alg».proof.Proof.RefGraph
import Idealize.ShloMosaic.PureOps.Ideal.Laws

noncomputable section

namespace Cert.ReferenceIdeal.RefVal

open Cert.ReferenceIdeal Cert.ReferenceIdeal.Gen Cert.ReferenceIdeal.ReadP Cert.LibSegment
open Idealize.ShloMosaic Idealize.ShloMosaic.ValueIdx

/-- `rsqrt` of an extended real above zero is a nonnegative real. -/
theorem rsqrt_pos_nonneg_real (D : EReal) (h : 0 < D) : 0 ≤ Ideal.rsqrt D ∧ Ideal.rsqrt D ≠ ⊤ := by
  induction D using EReal.rec with
  | bot => exact absurd h (by simp)
  | top => exact ⟨by rw [Ideal.rsqrt_top], by rw [Ideal.rsqrt_top]; exact EReal.zero_ne_top⟩
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

/-- Every node's weight is a nonnegative real. -/
theorem dinvOf_nonneg_real (x1 : (⟨S2x1600000, .i32⟩ : BufTy).Contents (Elt Ideal)) (n : Fin 100000) :
    0 ≤ dinvOf x1 n ∧ dinvOf x1 n ≠ ⊤ := by
  unfold dinvOf
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = D
  show 0 ≤ Scalar.select (Ideal.cmp .ogt D (Ideal.ofBits .f32 0x00000000#32)) (Ideal.rsqrt D) (Ideal.ofBits .f32 0x00000000#32)
    ∧ Scalar.select (Ideal.cmp .ogt D (Ideal.ofBits .f32 0x00000000#32)) (Ideal.rsqrt D) (Ideal.ofBits .f32 0x00000000#32) ≠ ⊤
  rw [Ideal.ofBits_zero_f32]
  unfold Scalar.select Ideal.cmp
  by_cases h : (0 : EReal) < D
  · rw [if_pos (by simp [h])]
    exact rsqrt_pos_nonneg_real D h
  · rw [if_neg (by simp [h])]
    exact ⟨le_refl 0, EReal.zero_ne_top⟩

/-- A message that lands on `n` is addressed to `n`. -/
theorem dstOf_of_mem_landOf (x1 : (⟨S2x1600000, .i32⟩ : BufTy).Contents (Elt Ideal)) (n : Fin 100000) (e : Fin 1700000)
    (he : e ∈ landOf x1 n) : dstOf x1 e = n := by
  have h : (val_main_v9 (F := Ideal) x1 (ix2 e (0 : Fin 1))).toInt = (n.val : ℤ) := (Finset.mem_filter.mp he).2
  rw [val_main_v9_apply] at h
  unfold dstOf
  rw [val_main_v27_apply, val_main_v26_apply, val_main_v23_apply, val_main_v25_apply, val_main_v22_apply, val_main_c_4_apply,
    val_main_v24_apply, val_main_c_5_apply]
  have hi : idx_main_v27 (ix2 e (0 : Fin 1)) = idx_main_v9 (ix2 e (0 : Fin 1)) := rfl
  rw [hi]
  generalize val_main_v6 (F := Ideal) x1 (idx_main_v9 (ix2 e (0 : Fin 1))) = v at h ⊢
  have hn : n.val < 100000 := n.isLt
  have hv : v.slt 0#32 = false := by
    rw [BitVec.slt]
    simp only [decide_eq_false_iff_not, not_lt]
    rw [h]; simp
  unfold Scalar.select IntOp.cmpi
  simp only [hv, BitVec.ofBool_false]
  rw [if_neg (by decide)]
  apply Fin.ext
  show min v.toInt.toNat (100000 - 1) = n.val
  rw [h]
  simp only [Int.toNat_natCast]
  omega

end Cert.ReferenceIdeal.RefVal

end
-- ==== Proof.lean ====
/-
  The certificate of a two-layer graph convolution with a linear head: a kernel of three tiled matrix-product regions
  with plain gather / segment-sum steps between them, against the textbook reference.

  * The three frames: the kernel's two (as printed, and idealized) are the frame of a program of three regions among
    stretches of host operations; the reference has no region, and its frame is its run with the results dropped.
  * The idealization rewrote nothing, so there is nothing to preserve.
  * The value claim, over the extended reals.  Both programs build the same graph data from the edge array: message
    sources and destinations, and per node the weight dinv = deg^(-1/2) (zero where nothing arrives).  The reference
    weights every message on its edge by dinv[src]·dinv[dst] before summing into the destination; the kernel scales the
    rows by dinv before the sum and the sums by dinv after it.  Entry by entry the kernel's results are the
    specification's "scaled" form (the three regions' write-backs read at an index, through the host's gather and
    segment sum), the reference's are its "edge" form, and the two forms are one function because every weight is a
    nonnegative real — such a factor distributes over a sum of extended reals — and a message landing on a node is
    addressed to it.  The arguments agree by hypothesis.
-/
import proofs.«128778_j61572651155681_2_alg».proof.Defs
import proofs.«128778_j61572651155681_2_alg».proof.Proof.Gen.Kernel
import proofs.«128778_j61572651155681_2_alg».proof.Proof.Gen.Kernel.Skeleton
import proofs.«128778_j61572651155681_2_alg».proof.Proof.Gen.Kernel.Launch
import proofs.«128778_j61572651155681_2_alg».proof.Proof.Gen.Kernel.Points
import proofs.«128778_j61572651155681_2_alg».proof.Proof.Gen.Kernel.Frame
import proofs.«128778_j61572651155681_2_alg».proof.Proof.Gen.KernelIdeal
import proofs.«128778_j61572651155681_2_alg».proof.Proof.Gen.KernelIdeal.Skeleton
import proofs.«128778_j61572651155681_2_alg».proof.Proof.Gen.KernelIdeal.Launch
import proofs.«128778_j61572651155681_2_alg».proof.Proof.Gen.KernelIdeal.Points
import proofs.«128778_j61572651155681_2_alg».proof.Proof.Gen.KernelIdeal.Frame
import proofs.«128778_j61572651155681_2_alg».proof.Proof.Gen.ReferenceIdeal
import proofs.«128778_j61572651155681_2_alg».proof.Proof.Gen.Pre_finite_inputs
import proofs.«128778_j61572651155681_2_alg».proof.Proof.KRun
import proofs.«128778_j61572651155681_2_alg».proof.Proof.KFold
import proofs.«128778_j61572651155681_2_alg».proof.Proof.RefValue
import proofs.«128778_j61572651155681_2_alg».proof.Proof.GraphFacts
import Idealize.ShloMosaic.Adequacy
import Idealize.ShloMosaic.Init

noncomputable section

namespace Cert.Proof

open Idealize.ShloMosaic Idealize.ShloMosaic.TcCoe Idealize.ShloMosaic.ValueIdx Idealize.SL.Sem
open Cert.ReferenceIdeal.RefVal Cert.Gcn

/-! ## The two forms of the specification are one function on this graph data -/

/-- With the graph data read off an edge array, the embeddings computed with the rows scaled before and after the sums
    are the embeddings computed with every message weighted on its edge. -/
theorem emb_forms (x1 : (⟨Cert.ReferenceIdeal.S2x1600000, .i32⟩ : BufTy).Contents (Elt Ideal))
    (x : Fin 100000 → Fin 32 → EReal) (W1 : Fin 32 → Fin 128 → EReal) (b1 : Fin 128 → EReal)
    (W2 : Fin 128 → Fin 128 → EReal) (b2 : Fin 128 → EReal) :
    embScaled (dinvOf x1) (srcOf x1) (landOf x1) zeroW x W1 b1 W2 b2
      = embEdge (dinvOf x1) (srcOf x1) (dstOf x1) (landOf x1) zeroW x W1 b1 W2 b2 :=
  embScaled_eq_embEdge (dinvOf x1) (dinvOf_nonneg_real x1) (srcOf x1) (dstOf x1) (landOf x1) (dstOf_of_mem_landOf x1)
    zeroW Ideal.ofBits_zero_f32 x W1 b1 W2 b2

/-! ## The results agree -/

section Results

variable (m : (ℓ : Loc Cert.KernelIdeal.nD Cert.KernelIdeal.τ Cert.KernelIdeal.sig) → Buf (Elt Ideal) ℓ)
  (ρ : Dev Cert.KernelIdeal.nD → PrngReg)

/-- The reference's embeddings, from the kernel's arguments, are the array the kernel's last region leaves. -/
theorem emb_eq (c : Dev Cert.KernelIdeal.nD) :
    (Cert.ReferenceIdeal.ReadP.val_main_v65 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      : Cert.KernelIdeal.S100000x128.Idx → EReal)
      = Cert.KernelIdeal.Gen.W8 m ρ c (Proc.devRef .tc Cert.KernelIdeal.main_v40_0) := by
  funext i
  obtain ⟨n, k, rfl⟩ : ∃ (n : Fin 100000) (k : Fin 128), i = ix2 n k := ⟨i 0, i 1, eq_ix2 i⟩
  rw [ref_emb, ← emb_forms]
  exact (Cert.KernelIdeal.KVal.kernel_emb m ρ c n k).symm

/-- The reference's logits, from the kernel's arguments, are the array the kernel's last region leaves. -/
theorem logits_eq (c : Dev Cert.KernelIdeal.nD) :
    (Cert.ReferenceIdeal.ReadP.val_main_v69 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      : Cert.KernelIdeal.S100000x2.Idx → EReal)
      = Cert.KernelIdeal.Gen.W8 m ρ c (Proc.devRef .tc Cert.KernelIdeal.main_v40_1) := by
  funext i
  obtain ⟨n, q, rfl⟩ : ∃ (n : Fin 100000) (q : Fin 2), i = ix2 n q := ⟨i 0, i 1, eq_ix2 i⟩
  rw [ref_logits, ← emb_forms]
  exact (Cert.KernelIdeal.KVal.kernel_logits m ρ c n q).symm

end Results

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs run; the kernel's results are what its last region leaves, and the reference's are the same arrays. -/
theorem algebraic : Cert.algebraic_KernelIdeal_ReferenceIdeal := by
  intro m ρ m' ρ' _ hagree
  refine ⟨fun c => Cert.KernelIdeal.Gen.W8 m ρ c (Proc.devRef .tc Cert.KernelIdeal.main_v40_1),
    fun c => Cert.KernelIdeal.Gen.W8 m ρ c (Proc.devRef .tc Cert.KernelIdeal.main_v40_0),
    Cert.KernelIdeal.ValRun.run (F := Ideal) m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨h0, h1, h2, h3, h4, h5, h6, h7⟩ := hagree c
    rw [Cert.ReferenceIdeal.ReadP.val_main_v69_eq, h0, h1, h2, h3, h4, h5, h6, h7]
    exact logits_eq m ρ c
  · obtain ⟨h0, h1, h2, h3, h4, h5, h6, h7⟩ := hagree c
    rw [Cert.ReferenceIdeal.ReadP.val_main_v65_eq, h0, h1, h2, h3, h4, h5]
    exact emb_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
